-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S64x1024 : Shape := ⟨2, ![64, 1024]⟩
abbrev S64 : Shape := ⟨1, ![64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x1024 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1024 .f32 := Host.absf main_arg8
  let main_cst_14 : FVec F S_ .f32 := constant S_ .f32 0x7F800000#32
  let main_v40 : FVec F S64x1024 .f32 := broadcastInDim S64x1024 ![] bcast_S_S64x1024 main_cst_14
  let main_v41 : IVec S64x1024 1 := cmpf .olt main_v39 main_v40
  let main_c_15 : IVec S_ 1 := constantI S_ 1 1#1
  let main_v42 : IVec S_ 1 := (fun x v => Host.reduce IntOp.andi x v reducesTo_S64x1024_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x1024 .f32) (main_arg5 : FVec F S64 .f32) (main_arg6 : FVec F S64x1024 .f32) (main_arg7 : FVec F S64 .f32) (main_arg8 : FVec F S64x1024 .f32) (main_arg9 : FVec F S64 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S4x2048x1024 .f32) (main_arg3 : FVec F S4x2048x2048 .f32) (main_arg4 : FVec F S64x1024 .f32) (main_arg5 : FVec F S64 .f32) (main_arg6 : FVec F S64x1024 .f32) (main_arg7 : FVec F S64 .f32) (main_arg8 : FVec F S64x1024 .f32) (main_arg9 : FVec F S64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S4x2048x2048 : Shape := ⟨3, ![4, 2048, 2048]⟩
abbrev S64x1024 : Shape := ⟨2, ![64, 1024]⟩
abbrev S64 : Shape := ⟨1, ![64]⟩
abbrev S4x2048x64 : Shape := ⟨3, ![4, 2048, 64]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S1x512x64 : Shape := ⟨3, ![1, 512, 64]⟩
abbrev S64x2048 : Shape := ⟨2, ![64, 2048]⟩
abbrev S2048x64 : Shape := ⟨2, ![2048, 64]⟩
abbrev S2048x1024 : Shape := ⟨2, ![2048, 1024]⟩
abbrev S64x1 : Shape := ⟨2, ![64, 1]⟩
abbrev S1x64 : Shape := ⟨2, ![1, 64]⟩
abbrev S512x1024 : Shape := ⟨2, ![512, 1024]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S4x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x512x2048, .f32⟩
  | .local _ .vmem, ⟨7, _⟩ => ⟨S1x512x2048, .f32⟩
  | .local _ .vmem, ⟨8, _⟩ => ⟨S64x1024, .f32⟩
  | .local _ .vmem, ⟨9, _⟩ => ⟨S64, .f32⟩
  | .local _ .vmem, ⟨10, _⟩ => ⟨S64x1024, .f32⟩
  | .local _ .vmem, ⟨11, _⟩ => ⟨S64, .f32⟩
  | .local _ .vmem, ⟨12, _⟩ => ⟨S64x1024, .f32⟩
  | .local _ .vmem, ⟨13, _⟩ => ⟨S64, .f32⟩
  | .local _ .vmem, ⟨14, _⟩ => ⟨S1x512x64, .f32⟩
  | .local _ .vmem, ⟨15, _⟩ => ⟨S1x512x64, .f32⟩
  | .local _ .vmem, ⟨16, _⟩ => ⟨S64x2048, .bf16⟩
  | .local _ .vmem, ⟨17, _⟩ => ⟨S2048x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S64_S64_0 : ∀ a, (![0] : Fin 1 → Nat) a + S64.size a ≤ S64.size a
  h_S64 : 0 < S64.numel
  shapeCasts_S64_S64x1 : S64.ShapeCasts S64x1
  broadcasts_S64x1_S64x2048 : S64x1.Broadcasts S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S64x2048_S64x2048_0_0 : (Rect.unit (s := S64x2048) ![0, 0] S64x2048.size inb_S64x2048_S64x2048_0_0).PackedRows (EltTy.packing .bf16)
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x64_S512x64 : S1x64.Broadcasts S512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S64x1024_S2048x1024_S64x2048_1_1_0_0_n_n_wf : DotDims.WF S64x1024 S2048x1024 S64x2048 [1] [1] [0] [0] [] []
  dot_S2048x1024_S64x1024_S2048x64_1_1_0_0_n_n_wf : DotDims.WF S2048x1024 S64x1024 S2048x64 [1] [1] [0] [0] [] []
  dot_S512x1024_S64x1024_S512x64_1_1_0_0_n_n_wf : DotDims.WF S512x1024 S64x1024 S512x64 [1] [1] [0] [0] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x2048x1024.size a
  hwx0_2 : ∀ i : grid0.Coords, EltTy.bits .f32 = 32 ∨ (Rect.block (s := S4x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x2048x2048.size a
  hwx0_3 : ∀ i : grid0.Coords, EltTy.bits .f32 = 32 ∨ (Rect.block (s := S4x2048x2048) S1x512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .f32 = 32 ∨ (Rect.block (s := S64x1024) S64x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x1024.size a
  hwx0_8 : ∀ i : grid0.Coords, EltTy.bits .f32 = 32 ∨ (Rect.block (s := S64x1024) S64x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x64.size a ≤ S4x2048x64.size a
  hwx0_10 : ∀ i : grid0.Coords, EltTy.bits .f32 = 32 ∨ (Rect.block (s := S4x2048x64) S1x512x64.size (cc0_transform_10 i) (hinb0_10 i)).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf
def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x512x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S64x1024 : Shape := ⟨2, ![64, 1024]⟩
abbrev S64 : Shape := ⟨1, ![64]⟩
abbrev S4x2048x64 : Shape := ⟨3, ![4, 2048, 64]⟩
abbrev S1x1x64 : Shape := ⟨3, ![1, 1, 64]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S4x2048x64, .f32⟩
  | .hbm, ⟨11, _⟩ => ⟨S1x1x64, .f32⟩
  | .hbm, ⟨12, _⟩ => ⟨S4x2048x64, .f32⟩
  | .hbm, ⟨13, _⟩ => ⟨S4x2048x64, .f32⟩
  | .hbm, ⟨14, _⟩ => ⟨S4x2048x64, .f32⟩
  | .hbm, ⟨15, _⟩ => ⟨S1x1x64, .f32⟩
  | .hbm, ⟨16, _⟩ => ⟨S4x2048x64, .f32⟩
  | .hbm, ⟨17, _⟩ => ⟨S4x2048x64, .f32⟩
  | .hbm, ⟨18, _⟩ => ⟨S4x2048x64, .f32⟩
  | .hbm, ⟨19, _⟩ => ⟨S1x1x64, .f32⟩
  | .hbm, ⟨20, _⟩ => ⟨S4x2048x64, .f32⟩
  | .hbm, ⟨21, _⟩ => ⟨S4x2048x64, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S64x1024_S4x2048x64_2_1_01_0_n_n_wf : DotDims.WF S4x2048x1024 S64x1024 S4x2048x64 [2] [1] [0, 1] [0] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.AttnSpec.lean ====
/- Single-head attention, row by row, on the extended reals: the specification both programs are read against.

   For a batch `bb`, a query row `r` and an output column `n` the result is the softmax of the row of scores, taken
   over the 2048 keys, applied to column `n` of the projected values. The arrays are functions of their coordinates.
   Two arrangements of the same row are written down: one scales each projected query entry by 1/8 before the dot
   product with the projected key and divides by the row sum once, after the weighted sum of the values; the other
   divides the dot product by 8 and normalises every weight before the weighted sum. -/
import Idealize.ShloMosaic.PureOps.Ideal
import Idealize.ShloMosaic.Lib.ValueIdx

noncomputable section

namespace Cert.AttnSpec

open Idealize.ShloMosaic

/-- An extended real that is a real number. -/
def IsReal (x : EReal) : Prop := ∃ r : ℝ, x = (r : EReal)

/-- The four float constants of the two programs, by their f32 words: 1/8, 8, the mask penalty -1e9, and the
    starting value of a running maximum (the word of minus infinity). -/
def eighth : EReal := Ideal.ofBits .f32 0x3E000000#32
def eight : EReal := Ideal.ofBits .f32 0x41000000#32
def penalty : EReal := Ideal.ofBits .f32 0xCE6E6B28#32
def floor : EReal := Ideal.ofBits .f32 0xFF800000#32

/-- A linear projection from 1024 to 64 columns with a bias: entry `(bb, s, n)` of `x · wᵀ + b`. -/
def proj (x : Fin 4 → Fin 2048 → Fin 1024 → EReal) (w : Fin 64 → Fin 1024 → EReal) (b : Fin 64 → EReal)
    (bb : Fin 4) (s : Fin 2048) (n : Fin 64) : EReal :=
  (∑ d : Fin 1024, x bb s d * w n d) + b n

section Row

/-- The running maximum of a row of scores, from `floor`. -/
def rowMax (sc : Fin 2048 → EReal) : EReal := (Finset.univ : Finset (Fin 2048)).fold max floor sc

/-- The unnormalised softmax weight of key `s`: the exponential of the score shifted by `m`. -/
def wgt (sc : Fin 2048 → EReal) (m : EReal) (s : Fin 2048) : EReal := Ideal.exp (sc s - m)

/-- The weighted sum of the values `vv`, divided once by the row sum of the weights. -/
def outLate (sc vv : Fin 2048 → EReal) : EReal :=
  Ideal.div (∑ s : Fin 2048, wgt sc (rowMax sc) s * vv s) (∑ s : Fin 2048, wgt sc (rowMax sc) s)

/-- The sum of the values `vv` weighted by the normalised weights, the shift being the larger of `floor` and the
    running maximum. -/
def outEarly (sc vv : Fin 2048 → EReal) : EReal :=
  ∑ s : Fin 2048, Ideal.div (wgt sc (max floor (rowMax sc)) s) (∑ s' : Fin 2048, wgt sc (max floor (rowMax sc)) s') * vv s

end Row

section Attention

variable (q k v : Fin 4 → Fin 2048 → Fin 1024 → EReal) (mask : Fin 4 → Fin 2048 → Fin 2048 → EReal)
  (wq : Fin 64 → Fin 1024 → EReal) (bq : Fin 64 → EReal) (wk : Fin 64 → Fin 1024 → EReal) (bk : Fin 64 → EReal)
  (wv : Fin 64 → Fin 1024 → EReal) (bv : Fin 64 → EReal)

/-- The score of query row `r` against key `s`, each projected query entry scaled by 1/8 before the dot product. -/
def scoreScaled (bb : Fin 4) (r s : Fin 2048) : EReal :=
  (∑ n : Fin 64, (proj q wq bq bb r n * eighth) * proj k wk bk bb s n) + mask bb r s * penalty

/-- The same score with the dot product divided by 8. -/
def scoreDivided (bb : Fin 4) (r s : Fin 2048) : EReal :=
  Ideal.div (∑ n : Fin 64, proj q wq bq bb r n * proj k wk bk bb s n) eight + mask bb r s * penalty

/-- Entry `(bb, r, n)` of the attention output, in the first arrangement. -/
def attnLate (bb : Fin 4) (r : Fin 2048) (n : Fin 64) : EReal :=
  outLate (scoreScaled q k mask wq bq wk bk bb r) (fun s => proj v wv bv bb s n)

/-- Entry `(bb, r, n)` of the attention output, in the second arrangement. -/
def attnEarly (bb : Fin 4) (r : Fin 2048) (n : Fin 64) : EReal :=
  outEarly (scoreDivided q k mask wq bq wk bk bb r) (fun s => proj v wv bv bb s n)

end Attention

/-- An array of three axes as a function of its coordinates. -/
def cur3 {a b c : Nat} (x : (⟨3, ![a, b, c]⟩ : Shape).Idx → EReal) : Fin a → Fin b → Fin c → EReal :=
  fun i j l => x (ValueIdx.ix3 i j l)
/-- An array of two axes as a function of its coordinates. -/
def cur2 {a b : Nat} (x : (⟨2, ![a, b]⟩ : Shape).Idx → EReal) : Fin a → Fin b → EReal :=
  fun i j => x (ValueIdx.ix2 i j)
/-- An array of one axis as a function of its coordinate. -/
def cur1 {a : Nat} (x : (⟨1, ![a]⟩ : Shape).Idx → EReal) : Fin a → EReal :=
  fun i => x (ValueIdx.ix1 i)

end Cert.AttnSpec

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.AttnAlgebra.lean ====
/-
  The two arrangements of the attention row agree when the scores are real numbers.

  Both arrangements take the softmax of one row of scores over the 2048 keys and apply it to a column of projected
  values. They differ in three places. (a) One scales every projected query entry by 1/8 before the dot product with the
  projected key, the other divides the dot product by 8: a finite nonnegative factor comes out of any finite sum of
  extended reals, and dividing by the real 8 is multiplying by 1/8, so the two scores are equal for all inputs.
  (b) One shifts the scores by the running maximum started from minus infinity, the other by the larger of minus
  infinity and that maximum: the same number. (c) One divides the weighted sum of the values by the row sum of the
  weights once, the other divides every weight first: when every score is real the running maximum is not plus
  infinity, every weight is positive, the row sum l is positive, and multiplication by the reciprocal of l, a
  nonnegative number that is not plus infinity, distributes over the sum whatever the values are.
-/
import proofs.«139940_j1314259993021_2_alg».proof.Proof.AttnSpec
import proofs.«139940_j1314259993021_2_alg».proof.Proof.LibSoftmaxRow

noncomputable section

namespace Cert.AttnAlgebra

open Idealize.ShloMosaic Cert.AttnSpec Cert.Lib.SoftmaxRow

/-! ### The four constants -/

/-- The word 0x3E000000 denotes 1/8: exponent field 124, significand field 0, so 2^23 * 2^(124 - 127 - 23). -/
theorem eighth_eq : eighth = ((1 / 8 : ℝ) : EReal) := by
  unfold eighth
  simp [Ideal.ofBits, Ideal.ieee, -EReal.coe_mul]; norm_num

/-- The word 0x41000000 denotes 8: exponent field 130, significand field 0. -/
theorem eight_eq : eight = ((8 : ℝ) : EReal) := by
  unfold eight
  simp [Ideal.ofBits, Ideal.ieee, -EReal.coe_mul]; norm_num

/-- The word 0xCE6E6B28 denotes -10^9: sign set, exponent field 156, significand field 7236392, and
    (2^23 + 7236392) * 2^(156 - 127 - 23) = 15625000 * 64. -/
theorem penalty_eq : penalty = ((-1000000000 : ℝ) : EReal) := by
  unfold penalty
  simp [Ideal.ofBits, Ideal.ieee, -EReal.coe_mul]; norm_num

/-- The word 0xFF800000 is the one of minus infinity. -/
theorem floor_eq : Cert.AttnSpec.floor = ⊥ := by
  unfold Cert.AttnSpec.floor
  simp [Ideal.ofBits, Ideal.ieee]

theorem isReal_eighth : IsReal eighth := ⟨_, eighth_eq⟩

theorem isReal_penalty : IsReal penalty := ⟨_, penalty_eq⟩

/-! ### Real numbers are closed under sums and products -/

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type*} (t : Finset ι) (f : ι → EReal) (h : ∀ i ∈ t, IsReal (f i)) :
    IsReal (∑ i ∈ t, f i) := by
  classical
  induction t using Finset.induction_on with
  | empty => exact ⟨0, by simp⟩
  | insert i t hi ih =>
    rw [Finset.sum_insert hi]
    exact isReal_add (h i (Finset.mem_insert_self i t)) (ih fun j hj => h j (Finset.mem_insert_of_mem hj))

theorem isReal_ne_top {x : EReal} (hx : IsReal x) : x ≠ ⊤ := by
  obtain ⟨a, rfl⟩ := hx
  exact EReal.coe_ne_top a

/-- A projection of real data by real weights and a real bias is real. -/
theorem isReal_proj (x : Fin 4 → Fin 2048 → Fin 1024 → EReal) (w : Fin 64 → Fin 1024 → EReal) (b : Fin 64 → EReal)
    (hx : ∀ bb s d, IsReal (x bb s d)) (hw : ∀ n d, IsReal (w n d)) (hb : ∀ n, IsReal (b n))
    (bb : Fin 4) (s : Fin 2048) (n : Fin 64) : IsReal (proj x w b bb s n) := by
  unfold proj
  exact isReal_add (isReal_sum _ _ fun d _ => isReal_mul (hx bb s d) (hw n d)) (hb n)

section Scores

variable (q k : Fin 4 → Fin 2048 → Fin 1024 → EReal) (mask : Fin 4 → Fin 2048 → Fin 2048 → EReal)
  (wq : Fin 64 → Fin 1024 → EReal) (bq : Fin 64 → EReal) (wk : Fin 64 → Fin 1024 → EReal) (bk : Fin 64 → EReal)

/-- Every score is real when the queries, the keys, the mask and the two projections are. -/
theorem isReal_scoreScaled
    (hq : ∀ b s d, IsReal (q b s d)) (hk : ∀ b s d, IsReal (k b s d)) (hmask : ∀ b r s, IsReal (mask b r s))
    (hwq : ∀ n d, IsReal (wq n d)) (hbq : ∀ n, IsReal (bq n)) (hwk : ∀ n d, IsReal (wk n d))
    (hbk : ∀ n, IsReal (bk n)) (bb : Fin 4) (r s : Fin 2048) :
    IsReal (scoreScaled q k mask wq bq wk bk bb r s) := by
  unfold scoreScaled
  exact isReal_add
    (isReal_sum _ _ fun n _ =>
      isReal_mul (isReal_mul (isReal_proj q wq bq hq hwq hbq bb r n) isReal_eighth)
        (isReal_proj k wk bk hk hwk hbk bb s n))
    (isReal_mul (hmask bb r s) isReal_penalty)

/-- Scaling each projected query entry by 1/8 before the dot product, or dividing the dot product by 8, gives the
    same score, for all extended-real inputs: 1/8 is finite and nonnegative, so it comes out of the sum, and the
    quotient by the real 8 is the product with 1/8. -/
theorem scoreScaled_eq_scoreDivided (bb : Fin 4) (r s : Fin 2048) :
    scoreScaled q k mask wq bq wk bk bb r s = scoreDivided q k mask wq bq wk bk bb r s := by
  unfold scoreScaled scoreDivided
  rw [eighth_eq, eight_eq, Ideal.div_coe (by norm_num : (8 : ℝ) ≠ 0),
    scaled_dot (fun n => proj q wq bq bb r n) (fun n => proj k wk bk bb s n)
      (c := ((1 / 8 : ℝ) : EReal)) (EReal.coe_nonneg.2 (by norm_num)) (EReal.coe_ne_top _)]

end Scores

/-! ### One row -/

/-- On a row of real scores, dividing once after the weighted sum and normalising every weight before it agree,
    for any values. -/
theorem outLate_eq_outEarly (sc vv : Fin 2048 → EReal) (hsc : ∀ s, IsReal (sc s)) :
    outLate sc vv = outEarly sc vv := by
  -- the running maximum starts from floor, so it is at least floor
  have hmax : max Cert.AttnSpec.floor (rowMax sc) = rowMax sc := max_eq_right (by rw [floor_eq]; exact bot_le)
  -- it is not plus infinity: it starts from minus infinity and every score is real
  have hm : rowMax sc ≠ ⊤ :=
    fold_max_ne_top (by rw [floor_eq]; exact bot_ne_top) sc fun s => isReal_ne_top (hsc s)
  -- so every weight is positive and so is the row sum
  have hl : 0 < ∑ s, wgt sc (rowMax sc) s := rowsum_pos sc (rowMax sc) (by norm_num) hsc hm
  unfold outLate outEarly
  rw [hmax, ← mul_one_div hl.ne', sum_mul_one_div hl (wgt sc (rowMax sc)) vv]

/-! ### The attention entry -/

theorem attnLate_eq_attnEarly (q k v : Fin 4 → Fin 2048 → Fin 1024 → EReal)
    (mask : Fin 4 → Fin 2048 → Fin 2048 → EReal) (wq : Fin 64 → Fin 1024 → EReal) (bq : Fin 64 → EReal)
    (wk : Fin 64 → Fin 1024 → EReal) (bk : Fin 64 → EReal) (wv : Fin 64 → Fin 1024 → EReal) (bv : Fin 64 → EReal)
    (hq : ∀ b s d, IsReal (q b s d)) (hk : ∀ b s d, IsReal (k b s d)) (hmask : ∀ b r s, IsReal (mask b r s))
    (hwq : ∀ n d, IsReal (wq n d)) (hbq : ∀ n, IsReal (bq n)) (hwk : ∀ n d, IsReal (wk n d))
    (hbk : ∀ n, IsReal (bk n))
    (bb : Fin 4) (r : Fin 2048) (n : Fin 64) :
    attnLate q k v mask wq bq wk bk wv bv bb r n = attnEarly q k v mask wq bq wk bk wv bv bb r n := by
  have hsc : scoreDivided q k mask wq bq wk bk bb r = scoreScaled q k mask wq bq wk bk bb r :=
    funext fun s => (scoreScaled_eq_scoreDivided q k mask wq bq wk bk bb r s).symm
  unfold attnLate attnEarly
  rw [hsc]
  exact outLate_eq_outEarly _ _ fun s => isReal_scoreScaled q k mask wq bq wk bk hq hk hmask hwq hbq hwk hbk bb r s

end Cert.AttnAlgebra

end
-- ==== Proof.FiniteInputs.lean ====
/- Finite inputs: from the precondition "every one of the ten argument arrays has |x| < +inf at every index" to
   "every entry of every argument array is a real number".

   The printed predicate is a conjunction (by the one-bit `and`) of ten reductions by `and`, one per array, of the
   elementwise comparison `max x (-x) < w`, where `w` is the value of the f32 word 0x7F800000, that is the top element
   of the extended reals. A reduction by `and` that is 1 had 1 at every index; a comparison that is 1 says
   `max x (-x) < ⊤`; and an extended real whose absolute value is below `⊤` is neither `⊥` nor `⊤`: it is a real. -/
import proofs.«139940_j1314259993021_2_alg».proof.Defs
import proofs.«139940_j1314259993021_2_alg».proof.Proof.Gen.Pre_finite_inputs
import proofs.«139940_j1314259993021_2_alg».proof.Proof.AttnSpec
import Idealize.ShloMosaic.Lib.ReduceAll
import Idealize.ShloMosaic.Lib.ValueIdx

namespace Cert.FiniteInputs

open Idealize.ShloMosaic Cert.Pre_finite_inputs Cert.AttnSpec

/-- The shape with no axis has one index. -/
instance : Subsingleton S_.Idx := ⟨fun a b => funext fun d => d.elim0⟩

/-- The f32 word 0x7F800000 denotes the top element of the extended reals. -/
theorem inf_word : Ideal.ofBits .f32 0x7F800000#32 = (⊤ : EReal) := by
  simp [Ideal.ofBits, Ideal.ieee]

/-- The ordered comparison "less than" of two extended reals that is 1 says that the first is below the second. -/
theorem lt_of_cmp_olt {a b : EReal} (h : Ideal.cmp .olt a b = 1#1) : a < b := by
  by_contra hc
  simp [Ideal.cmp, hc] at h

/-- An extended real whose absolute value `max x (-x)` is below `⊤` is a real number. -/
theorem isReal_of_abs_lt_top (x : EReal) (h : max x (-x) < ⊤) : IsReal x := by
  induction x using EReal.rec with
  | bot => simp at h
  | top => simp at h
  | coe r => exact ⟨r, rfl⟩

/-- One element of the comparison `|x| < +inf` being 1 says that the element of `x` is a real number. -/
theorem isReal_of_cmp {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    IsReal (x i) := by
  have h' : Ideal.cmp .olt (max (x i) (-(x i))) (Ideal.ofBits .f32 0x7F800000#32) = 1#1 := h
  rw [inf_word] at h'
  exact isReal_of_abs_lt_top (x i) (lt_of_cmp_olt h')

/-- `jnp.all (|x| < +inf)` being 1 says that every element of `x` is a real number. -/
theorem all_real {s : Shape} {axes : List (Fin s.rank)} (hb : S_.BroadcastsInDim s (![] : Fin 0 → Fin s.rank))
    (hr : s.ReducesTo axes S_) (hu : 0 < S_.numel) (x : FVec Ideal s .f32) (j : S_.Idx)
    (h : Host.reduce IntOp.andi (cmpf .olt (Host.absf x) (broadcastInDim s ![] hb (constant (F := Ideal) S_ .f32 0x7F800000#32)))
      (constantI S_ 1 1#1) hr hu j = 1#1) (i : s.Idx) : IsReal (x i) :=
  isReal_of_cmp hb x i (Host.reduce_andi_all _ _ hr hu j h i)

variable [Cert.Pre_finite_inputs.Facts]

/-- The printed predicate, read back: if it is 1 then every entry of each of its ten arguments is a real number. -/
theorem real_of_fn (x0 x1 x2 : FVec Ideal S4x2048x1024 .f32) (x3 : FVec Ideal S4x2048x2048 .f32)
    (x4 : FVec Ideal S64x1024 .f32) (x5 : FVec Ideal S64 .f32) (x6 : FVec Ideal S64x1024 .f32) (x7 : FVec Ideal S64 .f32)
    (x8 : FVec Ideal S64x1024 .f32) (x9 : FVec Ideal S64 .f32)
    (h : Cert.Pre_finite_inputs.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i)) := by
  have h0 := congrFun h ValueIdx.ix0
  dsimp only [fn, fn_part1, fn_part2, andi] at h0
  simp only [IntOp.andi_eq_one] at h0
  obtain ⟨⟨⟨⟨⟨⟨⟨⟨⟨a0, a1⟩, a2⟩, a3⟩, a4⟩, a5⟩, a6⟩, a7⟩, a8⟩, a9⟩ := h0
  exact ⟨all_real _ _ _ x0 _ a0, all_real _ _ _ x1 _ a1, all_real _ _ _ x2 _ a2, all_real _ _ _ x3 _ a3,
    all_real _ _ _ x4 _ a4, all_real _ _ _ x5 _ a5, all_real _ _ _ x6 _ a6, all_real _ _ _ x7 _ a7,
    all_real _ _ _ x8 _ a8, all_real _ _ _ x9 _ a9⟩

/-- The precondition on the memory, read back: on every device every entry of each of the ten argument arrays is a
    real number (in the order of the arguments: the queries, the keys, the values, the mask, then the weight and the
    bias of the query, key and value projections). -/
theorem real_of_pre_all (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i)) :=
  real_of_fn _ _ _ _ _ _ _ _ _ _ (h c)

/-- The same for the seven arrays the scores depend on: the queries, the keys, the mask, and the weight and the bias of
    the query and key projections. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i)) := by
  obtain ⟨r0, r1, _, r3, r4, r5, r6, r7, _, _⟩ := real_of_pre_all m h c
  exact ⟨r0, r1, r3, r4, r5, r6, r7⟩

end Cert.FiniteInputs
-- ==== Proof.RefAttn.lean ====
/- The reference program's result is the specification's second arrangement of single-head attention.

   The reference is read one operation at a time, at one index, from the inputs up: the three projections (a product
   with the weights contracted over the 1024 input columns, plus the bias broadcast along batch and row); the product
   of projected queries and keys contracted over the 64 columns, divided by 8, plus the mask times the penalty (the
   score); the maximum of a row of scores over the 2048 keys, started from minus infinity, and the larger of minus
   infinity and that maximum (the shift); the exponential of the shifted score (the weight); the sum of a row of
   weights; the weight divided by that sum; and the product of the normalised weights with the projected values
   contracted over the 2048 keys. Each step is an equation between one element of an intermediate array and a term of
   the specification at the same coordinates; sums are compared term by term and never unfolded. -/
import proofs.«139940_j1314259993021_2_alg».proof.Proof.Gen.ReferenceIdeal.Read
import proofs.«139940_j1314259993021_2_alg».proof.Proof.AttnSpec

noncomputable section

namespace Cert.RefAttn

open Cert.ReferenceIdeal Cert.ReferenceIdeal.Gen Cert.ReferenceIdeal.Read Idealize.ShloMosaic Idealize.ShloMosaic.ValueIdx Cert.AttnSpec

/-! ## The three projections -/

/-- The projected query: the product with the weights plus the broadcast bias is `proj` at the coordinates. -/
theorem v3_at (x0 : (⟨S4x2048x1024, .f32⟩ : BufTy).Contents (Elt Ideal)) (x4 : (⟨S64x1024, .f32⟩ : BufTy).Contents (Elt Ideal))
    (x5 : (⟨S64, .f32⟩ : BufTy).Contents (Elt Ideal)) (b : Fin 4) (r : Fin 2048) (n : Fin 64) :
    val_main_v3 (F := Ideal) x0 x4 x5 (ix3 b r n) = proj (cur3 x0) (cur2 x4) (cur1 x5) b r n := by
  rw [val_main_v3_apply, val_main_v0_apply, val_main_v2_apply, val_main_v1_apply]
  have e1 : ∀ k : Fin 1024, lidx_main_v0 (ix3 b r n) k = ix3 b r k := fun k => funext fun a => Fin.ext (by
    match a with | ⟨0, _⟩ => rfl | ⟨1, _⟩ => rfl | ⟨2, _⟩ => rfl)
  have e2 : ∀ k : Fin 1024, ridx_main_v0 (ix3 b r n) k = ix2 n k := fun k => funext fun a => Fin.ext (by
    match a with | ⟨0, _⟩ => rfl | ⟨1, _⟩ => rfl)
  have e3 : idx_main_v1 (idx_main_v2 (ix3 b r n)) = ix1 n := funext fun a => Fin.ext (by
    match a with | ⟨0, _⟩ => rfl)
  rw [e3]
  unfold proj cur3 cur2 cur1
  show (∑ k : Fin 1024, _) + _ = _
  exact congrArg (· + x5 (ix1 n)) (Finset.sum_congr rfl fun k _ => by rw [e1, e2])

/-- The projected key, likewise. -/
theorem v7_at (x1 : (⟨S4x2048x1024, .f32⟩ : BufTy).Contents (Elt Ideal)) (x6 : (⟨S64x1024, .f32⟩ : BufTy).Contents (Elt Ideal))
    (x7 : (⟨S64, .f32⟩ : BufTy).Contents (Elt Ideal)) (b : Fin 4) (r : Fin 2048) (n : Fin 64) :
    val_main_v7 (F := Ideal) x1 x6 x7 (ix3 b r n) = proj (cur3 x1) (cur2 x6) (cur1 x7) b r n := by
  rw [val_main_v7_apply, val_main_v4_apply, val_main_v6_apply, val_main_v5_apply]
  have e1 : ∀ k : Fin 1024, lidx_main_v4 (ix3 b r n) k = ix3 b r k := fun k => funext fun a => Fin.ext (by
    match a with | ⟨0, _⟩ => rfl | ⟨1, _⟩ => rfl | ⟨2, _⟩ => rfl)
  have e2 : ∀ k : Fin 1024, ridx_main_v4 (ix3 b r n) k = ix2 n k := fun k => funext fun a => Fin.ext (by
    match a with | ⟨0, _⟩ => rfl | ⟨1, _⟩ => rfl)
  have e3 : idx_main_v5 (idx_main_v6 (ix3 b r n)) = ix1 n := funext fun a => Fin.ext (by
    match a with | ⟨0, _⟩ => rfl)
  rw [e3]
  unfold proj cur3 cur2 cur1
  show (∑ k : Fin 1024, _) + _ = _
  exact congrArg (· + x7 (ix1 n)) (Finset.sum_congr rfl fun k _ => by rw [e1, e2])

/-- The projected value, likewise. -/
theorem v11_at (x2 : (⟨S4x2048x1024, .f32⟩ : BufTy).Contents (Elt Ideal)) (x8 : (⟨S64x1024, .f32⟩ : BufTy).Contents (Elt Ideal))
    (x9 : (⟨S64, .f32⟩ : BufTy).Contents (Elt Ideal)) (b : Fin 4) (r : Fin 2048) (n : Fin 64) :
    val_main_v11 (F := Ideal) x2 x8 x9 (ix3 b r n) = proj (cur3 x2) (cur2 x8) (cur1 x9) b r n := by
  rw [val_main_v11_apply, val_main_v8_apply, val_main_v10_apply, val_main_v9_apply]
  have e1 : ∀ k : Fin 1024, lidx_main_v8 (ix3 b r n) k = ix3 b r k := fun k => funext fun a => Fin.ext (by
    match a with | ⟨0, _⟩ => rfl | ⟨1, _⟩ => rfl | ⟨2, _⟩ => rfl)
  have e2 : ∀ k : Fin 1024, ridx_main_v8 (ix3 b r n) k = ix2 n k := fun k => funext fun a => Fin.ext (by
    match a with | ⟨0, _⟩ => rfl | ⟨1, _⟩ => rfl)
  have e3 : idx_main_v9 (idx_main_v10 (ix3 b r n)) = ix1 n := funext fun a => Fin.ext (by
    match a with | ⟨0, _⟩ => rfl)
  rw [e3]
  unfold proj cur3 cur2 cur1
  show (∑ k : Fin 1024, _) + _ = _
  exact congrArg (· + x9 (ix1 n)) (Finset.sum_congr rfl fun k _ => by rw [e1, e2])

/-! ## The scores -/

/-- The batched product of the projected queries and keys, contracted over the 64 columns. -/
theorem v12_at (x0 x1 : (⟨S4x2048x1024, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal)) (b : Fin 4) (r s : Fin 2048) :
    val_main_v12 (F := Ideal) x0 x1 x4 x5 x6 x7 (ix3 b r s)
      = ∑ n : Fin 64, proj (cur3 x0) (cur2 x4) (cur1 x5) b r n * proj (cur3 x1) (cur2 x6) (cur1 x7) b s n := by
  rw [val_main_v12_apply]
  refine Finset.sum_congr rfl fun n _ => ?_
  have el : lidx_main_v12 (ix3 b r s) n = ix3 b r n := funext fun a => Fin.ext (by
    match a with | ⟨0, _⟩ => rfl | ⟨1, _⟩ => rfl | ⟨2, _⟩ => rfl)
  have er : ridx_main_v12 (ix3 b r s) n = ix3 b s n := funext fun a => Fin.ext (by
    match a with | ⟨0, _⟩ => rfl | ⟨1, _⟩ => rfl | ⟨2, _⟩ => rfl)
  rw [el, er, v3_at, v7_at]

/-- The score: the product divided by the constant 8, plus the mask times the penalty constant. -/
theorem v17_at (x0 x1 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal)) (b : Fin 4) (r s : Fin 2048) :
    val_main_v17 (F := Ideal) x0 x1 x3 x4 x5 x6 x7 (ix3 b r s) = scoreDivided (cur3 x0) (cur3 x1) (cur3 x3) (cur2 x4) (cur1 x5) (cur2 x6) (cur1 x7) b r s := by
  rw [val_main_v17_apply, val_main_v14_apply, val_main_v13_apply, val_main_cst_apply, val_main_v16_apply,
    val_main_v15_apply, val_main_cst_0_apply, v12_at]
  rfl

/-! ## The row maximum -/

/-- The max-reduce over the key axis, from the word of minus infinity, is the running maximum of the row of scores. -/
theorem v18_at (x0 x1 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal)) (b : Fin 4) (r : Fin 2048) :
    val_main_v18 (F := Ideal) x0 x1 x3 x4 x5 x6 x7 (ix2 b r) = rowMax (scoreDivided (cur3 x0) (cur3 x1) (cur3 x3) (cur2 x4) (cur1 x5) (cur2 x6) (cur1 x7) b r) := by
  have h : Shape.Reduces S4x2048x2048 [2] S4x2048 := by decide
  have hrow : (fun s : Fin 2048 => val_main_v17 (F := Ideal) x0 x1 x3 x4 x5 x6 x7 (h.lift (ix2 b r) s))
      = scoreDivided (cur3 x0) (cur3 x1) (cur3 x3) (cur2 x4) (cur1 x5) (cur2 x6) (cur1 x7) b r := funext fun s => by
    have e : h.lift (ix2 b r) s = ix3 b r s := funext fun a => Fin.ext (by
      match a with | ⟨0, _⟩ => rfl | ⟨1, _⟩ => rfl | ⟨2, _⟩ => rfl)
    rw [e, v17_at]
  unfold val_main_v18 rowMax
  rw [Host.reduce_eq_fold_single _ _ _ _ h]
  exact congrArg (fun f : Fin 2048 → EReal => (Finset.univ : Finset (Fin 2048)).fold max floor f) hrow

/-- The shift: the larger of the broadcast minus-infinity word and the row maximum. -/
theorem v20_at (x0 x1 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal)) (b : Fin 4) (r : Fin 2048) :
    val_main_v20 (F := Ideal) x0 x1 x3 x4 x5 x6 x7 (ix2 b r) = max floor (rowMax (scoreDivided (cur3 x0) (cur3 x1) (cur3 x3) (cur2 x4) (cur1 x5) (cur2 x6) (cur1 x7) b r)) := by
  rw [val_main_v20_apply, val_main_v19_apply, val_main_cst_2_apply, v18_at]
  rfl

/-! ## The weights, their row sum, the normalised weights -/

/-- The exponential of the shifted score is the unnormalised weight. -/
theorem v24_at (x0 x1 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal)) (b : Fin 4) (r s : Fin 2048) :
    val_main_v24 (F := Ideal) x0 x1 x3 x4 x5 x6 x7 (ix3 b r s)
      = wgt (scoreDivided (cur3 x0) (cur3 x1) (cur3 x3) (cur2 x4) (cur1 x5) (cur2 x6) (cur1 x7) b r) (max floor (rowMax (scoreDivided (cur3 x0) (cur3 x1) (cur3 x3) (cur2 x4) (cur1 x5) (cur2 x6) (cur1 x7) b r))) s := by
  rw [val_main_v24_apply, val_main_v23_apply, v17_at, val_main_v22_apply, val_main_v21_apply]
  have e : idx_main_v21 (idx_main_v22 (ix3 b r s)) = ix2 b r := funext fun a => Fin.ext (by
    match a with | ⟨0, _⟩ => rfl | ⟨1, _⟩ => rfl)
  rw [e, v20_at]
  rfl

/-- The add-reduce over the key axis from the zero word is the row sum of the weights. -/
theorem v25_at (x0 x1 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal)) (b : Fin 4) (r : Fin 2048) :
    val_main_v25 (F := Ideal) x0 x1 x3 x4 x5 x6 x7 (ix2 b r)
      = ∑ s : Fin 2048, wgt (scoreDivided (cur3 x0) (cur3 x1) (cur3 x3) (cur2 x4) (cur1 x5) (cur2 x6) (cur1 x7) b r) (max floor (rowMax (scoreDivided (cur3 x0) (cur3 x1) (cur3 x3) (cur2 x4) (cur1 x5) (cur2 x6) (cur1 x7) b r))) s := by
  rw [val_main_v25_apply, val_main_cst_3_apply]
  show Ideal.ofBits .f32 0x00000000#32 + _ = _
  rw [Ideal.ofBits_zero_f32, zero_add]
  refine Finset.sum_congr rfl fun s _ => ?_
  have e : idx_main_v25 (ix2 b r) s = ix3 b r s := funext fun a => Fin.ext (by
    match a with | ⟨0, _⟩ => rfl | ⟨1, _⟩ => rfl | ⟨2, _⟩ => rfl)
  rw [e, v24_at]

/-- The weight divided by the broadcast row sum. -/
theorem v28_at (x0 x1 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal)) (b : Fin 4) (r s : Fin 2048) :
    val_main_v28 (F := Ideal) x0 x1 x3 x4 x5 x6 x7 (ix3 b r s)
      = Ideal.div (wgt (scoreDivided (cur3 x0) (cur3 x1) (cur3 x3) (cur2 x4) (cur1 x5) (cur2 x6) (cur1 x7) b r) (max floor (rowMax (scoreDivided (cur3 x0) (cur3 x1) (cur3 x3) (cur2 x4) (cur1 x5) (cur2 x6) (cur1 x7) b r))) s)
          (∑ s' : Fin 2048, wgt (scoreDivided (cur3 x0) (cur3 x1) (cur3 x3) (cur2 x4) (cur1 x5) (cur2 x6) (cur1 x7) b r) (max floor (rowMax (scoreDivided (cur3 x0) (cur3 x1) (cur3 x3) (cur2 x4) (cur1 x5) (cur2 x6) (cur1 x7) b r))) s') := by
  rw [val_main_v28_apply, v24_at, val_main_v27_apply, val_main_v26_apply]
  have e : idx_main_v26 (idx_main_v27 (ix3 b r s)) = ix2 b r := funext fun a => Fin.ext (by
    match a with | ⟨0, _⟩ => rfl | ⟨1, _⟩ => rfl)
  rw [e, v25_at]
  rfl

/-! ## The result -/

/-- The reference program's result, read one operation at a time, is the specification's second arrangement. -/
theorem ref_eq (x0 x1 x2 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (x8 : (⟨S64x1024, .f32⟩ : BufTy).Contents (Elt Ideal)) (x9 : (⟨S64, .f32⟩ : BufTy).Contents (Elt Ideal)) :
    Cert.ReferenceIdeal.Read.val_main_v29 x0 x1 x2 x3 x4 x5 x6 x7 x8 x9
      = fun i => Cert.AttnSpec.attnEarly (cur3 x0) (cur3 x1) (cur3 x2) (cur3 x3) (cur2 x4) (cur1 x5) (cur2 x6) (cur1 x7)
          (cur2 x8) (cur1 x9) (i 0) (i 1) (i 2) := by
  funext i
  obtain ⟨b, r, n, rfl⟩ : ∃ (b : Fin 4) (r : Fin 2048) (n : Fin 64), i = ix3 b r n := ⟨i 0, i 1, i 2, eq_ix3 i⟩
  show val_main_v29 (F := Ideal) x0 x1 x2 x3 x4 x5 x6 x7 x8 x9 (ix3 b r n)
    = attnEarly (cur3 x0) (cur3 x1) (cur3 x2) (cur3 x3) (cur2 x4) (cur1 x5) (cur2 x6) (cur1 x7) (cur2 x8) (cur1 x9) b r n
  rw [val_main_v29_apply]
  unfold attnEarly outEarly
  refine Finset.sum_congr rfl fun s _ => ?_
  have el : lidx_main_v29 (ix3 b r n) s = ix3 b r s := funext fun a => Fin.ext (by
    match a with | ⟨0, _⟩ => rfl | ⟨1, _⟩ => rfl | ⟨2, _⟩ => rfl)
  have er : ridx_main_v29 (ix3 b r n) s = ix3 b s n := funext fun a => Fin.ext (by
    match a with | ⟨0, _⟩ => rfl | ⟨1, _⟩ => rfl | ⟨2, _⟩ => rfl)
  rw [el, er, v28_at, v11_at]

end Cert.RefAttn

end
-- ==== Proof.KernelPieces.lean ====
/- What one run of the attention body leaves behind, as values: the contents of the output tile and of the two scratch
   buffers after the body, as the body's arithmetic applied to the contents of the buffers it loaded. -/
import proofs.«139940_j1314259993021_2_alg».proof.Proof.Gen.KernelIdeal.Frame
import Idealize.ShloMosaic.Lib.Pipeline.Value
import Idealize.ShloMosaic.Lib.Tactic

noncomputable section

namespace Cert.KernelPieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem hz1 : (![0] : Fin 1 → Nat) = fun _ => 0 := funext fun a => by fin_cases a <;> rfl

/-- At a batch's first query tile the key scratch is left holding the projected keys, transposed: the one covering
    store's payload of the key block, the key weights and the key bias. -/
theorem key_A (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x512x64 .f32) (harg12 : arg12.IsWhole) (arg13 : Memref sig .tc .vmem S64x2048 .bf16) (harg13 : arg13.IsWhole) (arg14 : Memref sig .tc .vmem S2048x64 .f32) (harg14 : arg14.IsWhole) (hc0 : cond0_0 i) (x0 : Vec F S1x512x1024 .f32) (x1 : Vec F S1x2048x1024 .f32) (x2 : Vec F S1x2048x1024 .f32) (x3 : Vec F S1x512x2048 .f32) (x4 : Vec F S64x1024 .f32) (x5 : Vec F S64 .f32) (x6 : Vec F S64x1024 .f32) (x7 : Vec F S64 .f32) (x8 : Vec F S64x1024 .f32) (x9 : Vec F S64 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay2 x1 x6 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg3.read_unread, harg8.read_unread, harg9.read_unread,
    View.ld_unit_zero (S := S1x2048x1024) hz3, View.ld_unit_zero (S := S64x1024) hz2, View.ld_unit_zero (S := S64) hz1]

/-- … and the value scratch the projected values. -/
theorem val_A (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x512x64 .f32) (harg12 : arg12.IsWhole) (arg13 : Memref sig .tc .vmem S64x2048 .bf16) (harg13 : arg13.IsWhole) (arg14 : Memref sig .tc .vmem S2048x64 .f32) (harg14 : arg14.IsWhole) (hc0 : cond0_0 i) (x0 : Vec F S1x512x1024 .f32) (x1 : Vec F S1x2048x1024 .f32) (x2 : Vec F S1x2048x1024 .f32) (x3 : Vec F S1x512x2048 .f32) (x4 : Vec F S64x1024 .f32) (x5 : Vec F S64 .f32) (x6 : Vec F S64x1024 .f32) (x7 : Vec F S64 .f32) (x8 : Vec F S64x1024 .f32) (x9 : Vec F S64 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay3 x2 x8 x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg4.read_unread, harg10.read_unread, harg11.read_unread,
    View.ld_unit_zero (S := S1x2048x1024) hz3, View.ld_unit_zero (S := S64x1024) hz2, View.ld_unit_zero (S := S64) hz1]

/-- At a later query tile the output tile is the attention payload of the query tile, the query weights and bias,
    the mask tile, and the two scratch buffers as the tile before left them. -/
theorem out_B (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x512x64 .f32) (harg12 : arg12.IsWhole) (arg13 : Memref sig .tc .vmem S64x2048 .bf16) (harg13 : arg13.IsWhole) (arg14 : Memref sig .tc .vmem S2048x64 .f32) (harg14 : arg14.IsWhole) (hc0 : ¬cond0_0 i) (x0 : Vec F S1x512x1024 .f32) (x1 : Vec F S1x2048x1024 .f32) (x2 : Vec F S1x2048x1024 .f32) (x3 : Vec F S1x512x2048 .f32) (x4 : Vec F S64x1024 .f32) (x5 : Vec F S64 .f32) (x6 : Vec F S64x1024 .f32) (x7 : Vec F S64 .f32) (x8 : Vec F S64x1024 .f32) (x9 : Vec F S64 .f32) (xs0 : Vec F S64x2048 .bf16) (xs1 : Vec F S2048x64 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = k0_pay1 (k0_pay4 x0 x4 x5 xs0 x3 xs1) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero hz3]
  simp only [View.readAt_eq_ld, harg2.read_unread, harg5.read_unread, harg6.read_unread, harg7.read_unread,
    harg13.read_unread, harg14.read_unread,
    View.ld_unit_zero (S := S1x512x1024) hz3, View.ld_unit_zero (S := S1x512x2048) hz3, View.ld_unit_zero (S := S64x1024) hz2,
    View.ld_unit_zero (S := S64) hz1, View.ld_unit_zero (S := S64x2048) hz2, View.ld_unit_zero (S := S2048x64) hz2]

/-- At a batch's first query tile the same payload reads the scratch buffers back as that tile itself stored them. -/
theorem out_A (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x512x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x512x64 .f32) (harg12 : arg12.IsWhole) (arg13 : Memref sig .tc .vmem S64x2048 .bf16) (harg13 : arg13.IsWhole) (arg14 : Memref sig .tc .vmem S2048x64 .f32) (harg14 : arg14.IsWhole) (hc0 : cond0_0 i) (x0 : Vec F S1x512x1024 .f32) (x1 : Vec F S1x2048x1024 .f32) (x2 : Vec F S1x2048x1024 .f32) (x3 : Vec F S1x512x2048 .f32) (x4 : Vec F S64x1024 .f32) (x5 : Vec F S64 .f32) (x6 : Vec F S64x1024 .f32) (x7 : Vec F S64 .f32) (x8 : Vec F S64x1024 .f32) (x9 : Vec F S64 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay1 (k0_pay4 x0 x4 x5 (k0_pay2 x1 x6 x7) x3 (k0_pay3 x2 x8 x9)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz3, View.readCov_unit_zero (S := S64x2048) _ hz2, View.readCov_unit_zero (S := S2048x64) _ hz2]
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S1x512x1024) hz3, View.ld_unit_zero (S := S1x2048x1024) hz3, View.ld_unit_zero (S := S1x512x2048) hz3,
    View.ld_unit_zero (S := S64x1024) hz2, View.ld_unit_zero (S := S64) hz1]

end Cert.KernelPieces

end
-- ==== Proof.KernelPoints.lean ====
/- What the output tile and the two scratch buffers hold after each grid point, as the body's arithmetic of that point's
   blocks: at a batch's first query tile the scratch buffers are filled from the batch's key and value blocks, at a
   later tile they are what the tile before left. -/
import proofs.«139940_j1314259993021_2_alg».proof.Proof.KernelPieces

noncomputable section

namespace Cert.KernelPoints

open Cert.KernelIdeal Cert.KernelIdeal.Gen Idealize.ShloMosaic Idealize.ShloMosaic.TcCoe Idealize.SL.Sem Cert.KernelPieces

variable {F : FTy → Type} [FloatOps F]
variable (m : (ℓ : Loc nD τ sig) → Buf (Elt F) ℓ)

/-- The projected keys (transposed) of the batch whose key block, key weights and key bias point `t` sees. -/
abbrev keysAt (c : Dev nD) (t : Fin cfg0.N) : Vec F S64x2048 .bf16 := k0_pay2 (iblk m c 1 t) (iblk m c 6 t) (iblk m c 7 t)
/-- The projected values of that batch. -/
abbrev valsAt (c : Dev nD) (t : Fin cfg0.N) : Vec F S2048x64 .f32 := k0_pay3 (iblk m c 2 t) (iblk m c 8 t) (iblk m c 9 t)
/-- The output tile of point `t` over given scratch contents. -/
abbrev tileAt (c : Dev nD) (t : Fin cfg0.N) (ks : Vec F S64x2048 .bf16) (vs : Vec F S2048x64 .f32) : Vec F S1x512x64 .f32 :=
  k0_pay1 (k0_pay4 (iblk m c 0 t) (iblk m c 4 t) (iblk m c 5 t) ks (iblk m c 3 t) vs)

/-- After a batch's first query tile: the key scratch. -/
theorem keys_first (c : Dev nD) (t : Fin cfg0.N) (h0 : t.val % 4 = 0) :
    (outsAt0 m c t.val t.isLt).2.1 = keysAt m c t := by
  rw [outsAt0_A m c t h0]
  dsimp only
  exact key_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- After a batch's first query tile: the value scratch. -/
theorem vals_first (c : Dev nD) (t : Fin cfg0.N) (h0 : t.val % 4 = 0) :
    (outsAt0 m c t.val t.isLt).2.2 = valsAt m c t := by
  rw [outsAt0_A m c t h0]
  dsimp only
  exact val_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- After a batch's first query tile: the output tile. -/
theorem tile_first (c : Dev nD) (t : Fin cfg0.N) (h0 : t.val % 4 = 0) :
    (outsAt0 m c t.val t.isLt).1 = tileAt m c t (keysAt m c t) (valsAt m c t) := by
  rw [outsAt0_A m c t h0]
  dsimp only
  exact out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- After a later query tile the scratch buffers are unchanged. -/
theorem keys_later (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  rw [outsAt0_B m c t h0]
  rfl

theorem vals_later (c : Dev nD) (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]
  rfl

/-- After a later query tile: the output tile, over the scratch the tile before left. -/
theorem tile_later (c : Dev nD) (t : Fin cfg0.N) (h0 : ¬t.val % 4 = 0) :
    (outsAt0 m c t.val t.isLt).1 = tileAt m c t (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0]
  dsimp only
  exact out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelPoints

end
-- ==== Proof.KernelBlocks.lean ====
/- The windows' blocks read at coordinates. Grid point `t` of the 4 × 4 grid is batch `t / 4` and query tile `t % 4`:
   the query and mask windows hold rows `512 · (t % 4) + r` of that batch, the key and value windows the whole batch,
   the weight and bias windows their whole arrays; the output window writes the same rows of the result. -/
import proofs.«139940_j1314259993021_2_alg».proof.Proof.Gen.KernelIdeal.Frame
import Idealize.ShloMosaic.Lib.Pipeline.Value
import Idealize.ShloMosaic.Lib.ValueIdx

noncomputable section

namespace Cert.KernelBlocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem N16 : cfg0.N = 16 := N_0

/-- The batch of a grid point. -/
def batchOf (t : Fin cfg0.N) : Fin 4 := ⟨t.val / 4, by have := t.isLt; have := N16; omega⟩
/-- Row `r` of a grid point's query tile, as a row of the batch. -/
def rowOf (t : Fin cfg0.N) (r : Fin 512) : Fin 2048 := ⟨512 * (t.val % 4) + r.val, by have := r.isLt; omega⟩

/-- The printed index maps, decided over the sixteen points. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 2) = 0 ∧ win0_4.index t (1 : Fin 2) = 0)
    ∧ (win0_5.index t (0 : Fin 1) = 0)
    ∧ (win0_6.index t (0 : Fin 2) = 0 ∧ win0_6.index t (1 : Fin 2) = 0)
    ∧ (win0_7.index t (0 : Fin 1) = 0)
    ∧ (win0_8.index t (0 : Fin 2) = 0 ∧ win0_8.index t (1 : Fin 2) = 0)
    ∧ (win0_9.index t (0 : Fin 1) = 0)
    ∧ (win0_10.index t (0 : Fin 3) = t.val / 4 ∧ win0_10.index t (1 : Fin 3) = t.val % 4 ∧ win0_10.index t (2 : Fin 3) = 0) :=
  (by decide +kernel : ∀ t : Fin grid0.N, _)

/-- The query tile: row `r`, column `d` of the block is row `512 · (t % 4) + r` of batch `t / 4`. -/
theorem q_block (c : Dev nD) (t : Fin cfg0.N) (r : Fin 512) (d : Fin 1024) :
    (iblk m c 0 t : Vec F S1x512x1024 .f32) (ix3 (0 : Fin 1) r d)
      = m ((c : Thread nD τ).loc main_arg0) (ix3 (batchOf t) (rowOf t r) d) := by
  obtain ⟨⟨e0, e1, e2⟩, -⟩ := idx_facts t
  unfold iblk
  rw [View.read_apply]
  show V m c main_arg0 _ = m ((c : Thread nD τ).loc main_arg0) _
  refine congrArg (m ((c : Thread nD τ).loc main_arg0)) ?_
  funext a
  apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * d.val = d.val; omega

/-- The key block is the whole batch. -/
theorem k_block (c : Dev nD) (t : Fin cfg0.N) (s : Fin 2048) (d : Fin 1024) :
    (iblk m c 1 t : Vec F S1x2048x1024 .f32) (ix3 (0 : Fin 1) s d)
      = m ((c : Thread nD τ).loc main_arg1) (ix3 (batchOf t) s d) := by
  obtain ⟨-, ⟨e0, e1, e2⟩, -⟩ := idx_facts t
  unfold iblk
  rw [View.read_apply]
  show V m c main_arg1 _ = m ((c : Thread nD τ).loc main_arg1) _
  refine congrArg (m ((c : Thread nD τ).loc main_arg1)) ?_
  funext a
  apply Fin.ext
  match a with
  | ⟨0, _⟩ => show win0_1.index t (0 : Fin 3) * 1 + 1 * 0 = t.val / 4; omega
  | ⟨1, _⟩ => show win0_1.index t (1 : Fin 3) * 2048 + 1 * s.val = s.val; omega
  | ⟨2, _⟩ => show win0_1.index t (2 : Fin 3) * 1024 + 1 * d.val = d.val; omega

/-- The value block is the whole batch. -/
theorem v_block (c : Dev nD) (t : Fin cfg0.N) (s : Fin 2048) (d : Fin 1024) :
    (iblk m c 2 t : Vec F S1x2048x1024 .f32) (ix3 (0 : Fin 1) s d)
      = m ((c : Thread nD τ).loc main_arg2) (ix3 (batchOf t) s d) := by
  obtain ⟨-, -, ⟨e0, e1, e2⟩, -⟩ := idx_facts t
  unfold iblk
  rw [View.read_apply]
  show V m c main_arg2 _ = m ((c : Thread nD τ).loc main_arg2) _
  refine congrArg (m ((c : Thread nD τ).loc main_arg2)) ?_
  funext a
  apply Fin.ext
  match a with
  | ⟨0, _⟩ => show win0_2.index t (0 : Fin 3) * 1 + 1 * 0 = t.val / 4; omega
  | ⟨1, _⟩ => show win0_2.index t (1 : Fin 3) * 2048 + 1 * s.val = s.val; omega
  | ⟨2, _⟩ => show win0_2.index t (2 : Fin 3) * 1024 + 1 * d.val = d.val; omega

/-- The mask tile: the same rows as the query tile, all 2048 keys. -/
theorem mask_block (c : Dev nD) (t : Fin cfg0.N) (r : Fin 512) (s : Fin 2048) :
    (iblk m c 3 t : Vec F S1x512x2048 .f32) (ix3 (0 : Fin 1) r s)
      = m ((c : Thread nD τ).loc main_arg3) (ix3 (batchOf t) (rowOf t r) s) := by
  obtain ⟨-, -, -, ⟨e0, e1, e2⟩, -⟩ := idx_facts t
  unfold iblk
  rw [View.read_apply]
  show V m c main_arg3 _ = m ((c : Thread nD τ).loc main_arg3) _
  refine congrArg (m ((c : Thread nD τ).loc main_arg3)) ?_
  funext a
  apply Fin.ext
  match a with
  | ⟨0, _⟩ => show win0_3.index t (0 : Fin 3) * 1 + 1 * 0 = t.val / 4; omega
  | ⟨1, _⟩ => show win0_3.index t (1 : Fin 3) * 512 + 1 * r.val = 512 * (t.val % 4) + r.val; omega
  | ⟨2, _⟩ => show win0_3.index t (2 : Fin 3) * 2048 + 1 * s.val = s.val; omega

/-- A weight window is its whole array. -/
theorem wq_block (c : Dev nD) (t : Fin cfg0.N) (n : Fin 64) (d : Fin 1024) :
    (iblk m c 4 t : Vec F S64x1024 .f32) (ix2 n d) = m ((c : Thread nD τ).loc main_arg4) (ix2 n d) := by
  obtain ⟨-, -, -, -, ⟨e0, e1⟩, -⟩ := idx_facts t
  unfold iblk
  rw [View.read_apply]
  show V m c main_arg4 _ = m ((c : Thread nD τ).loc main_arg4) _
  refine congrArg (m ((c : Thread nD τ).loc main_arg4)) ?_
  funext a
  apply Fin.ext
  match a with
  | ⟨0, _⟩ => show win0_4.index t (0 : Fin 2) * 64 + 1 * n.val = n.val; omega
  | ⟨1, _⟩ => show win0_4.index t (1 : Fin 2) * 1024 + 1 * d.val = d.val; omega

/-- A weight window is its whole array. -/
theorem wk_block (c : Dev nD) (t : Fin cfg0.N) (n : Fin 64) (d : Fin 1024) :
    (iblk m c 6 t : Vec F S64x1024 .f32) (ix2 n d) = m ((c : Thread nD τ).loc main_arg6) (ix2 n d) := by
  obtain ⟨-, -, -, -, -, -, ⟨e0, e1⟩, -⟩ := idx_facts t
  unfold iblk
  rw [View.read_apply]
  show V m c main_arg6 _ = m ((c : Thread nD τ).loc main_arg6) _
  refine congrArg (m ((c : Thread nD τ).loc main_arg6)) ?_
  funext a
  apply Fin.ext
  match a with
  | ⟨0, _⟩ => show win0_6.index t (0 : Fin 2) * 64 + 1 * n.val = n.val; omega
  | ⟨1, _⟩ => show win0_6.index t (1 : Fin 2) * 1024 + 1 * d.val = d.val; omega

/-- A weight window is its whole array. -/
theorem wv_block (c : Dev nD) (t : Fin cfg0.N) (n : Fin 64) (d : Fin 1024) :
    (iblk m c 8 t : Vec F S64x1024 .f32) (ix2 n d) = m ((c : Thread nD τ).loc main_arg8) (ix2 n d) := by
  obtain ⟨-, -, -, -, -, -, -, -, ⟨e0, e1⟩, -⟩ := idx_facts t
  unfold iblk
  rw [View.read_apply]
  show V m c main_arg8 _ = m ((c : Thread nD τ).loc main_arg8) _
  refine congrArg (m ((c : Thread nD τ).loc main_arg8)) ?_
  funext a
  apply Fin.ext
  match a with
  | ⟨0, _⟩ => show win0_8.index t (0 : Fin 2) * 64 + 1 * n.val = n.val; omega
  | ⟨1, _⟩ => show win0_8.index t (1 : Fin 2) * 1024 + 1 * d.val = d.val; omega

/-- A bias window is its whole array. -/
theorem bq_block (c : Dev nD) (t : Fin cfg0.N) (n : Fin 64) :
    (iblk m c 5 t : Vec F S64 .f32) (ix1 n) = m ((c : Thread nD τ).loc main_arg5) (ix1 n) := by
  obtain ⟨-, -, -, -, -, e0, -⟩ := idx_facts t
  unfold iblk
  rw [View.read_apply]
  show V m c main_arg5 _ = m ((c : Thread nD τ).loc main_arg5) _
  refine congrArg (m ((c : Thread nD τ).loc main_arg5)) ?_
  funext a
  apply Fin.ext
  match a with
  | ⟨0, _⟩ => show win0_5.index t (0 : Fin 1) * 64 + 1 * n.val = n.val; omega

/-- A bias window is its whole array. -/
theorem bk_block (c : Dev nD) (t : Fin cfg0.N) (n : Fin 64) :
    (iblk m c 7 t : Vec F S64 .f32) (ix1 n) = m ((c : Thread nD τ).loc main_arg7) (ix1 n) := by
  obtain ⟨-, -, -, -, -, -, -, e0, -⟩ := idx_facts t
  unfold iblk
  rw [View.read_apply]
  show V m c main_arg7 _ = m ((c : Thread nD τ).loc main_arg7) _
  refine congrArg (m ((c : Thread nD τ).loc main_arg7)) ?_
  funext a
  apply Fin.ext
  match a with
  | ⟨0, _⟩ => show win0_7.index t (0 : Fin 1) * 64 + 1 * n.val = n.val; omega

/-- A bias window is its whole array. -/
theorem bv_block (c : Dev nD) (t : Fin cfg0.N) (n : Fin 64) :
    (iblk m c 9 t : Vec F S64 .f32) (ix1 n) = m ((c : Thread nD τ).loc main_arg9) (ix1 n) := by
  obtain ⟨-, -, -, -, -, -, -, -, -, e0, -⟩ := idx_facts t
  unfold iblk
  rw [View.read_apply]
  show V m c main_arg9 _ = m ((c : Thread nD τ).loc main_arg9) _
  refine congrArg (m ((c : Thread nD τ).loc main_arg9)) ?_
  funext a
  apply Fin.ext
  match a with
  | ⟨0, _⟩ => show win0_9.index t (0 : Fin 1) * 64 + 1 * n.val = n.val; omega

end Cert.KernelBlocks

end
-- ==== Proof.KernelPayloads.lean ====
/- The kernel body's arithmetic read one entry at a time, on the extended reals.

   The body computes three arrays. The projected keys, stored transposed: entry (n, s) is the dot product over the 1024
   input columns of row n of the key weights with key row s, plus the bias at n. The projected values: entry (s, n) is the
   dot product of value row s with row n of the value weights, plus the bias at n. The output block: entry (r, n) is the
   softmax of the row of scores of query row r, taken over the 2048 keys, applied to column n of the projected values,
   where the score against key s is the dot product over the 64 projected columns of the projected query row, each
   entry scaled by 1/8, with the stored projected keys, plus the mask entry times the penalty; the weighted sum of the
   values is divided once by the row sum of the weights. Every change of number format is the identity on the extended
   reals, every reshape moves an entry to the position with the same coordinates up to unit axes, and a contraction into
   the zero array is the plain sum of products. -/
import proofs.«139940_j1314259993021_2_alg».proof.Proof.Gen.KernelIdeal.Skeleton
import proofs.«139940_j1314259993021_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelPayloads

open Cert.KernelIdeal Cert.KernelIdeal.Gen Idealize.ShloMosaic Idealize.ShloMosaic.ValueIdx Cert.AttnSpec

variable [Cert.KernelIdeal.Facts]

/-! ## Two reshapes of a column read at coordinates -/

section Layout
variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along `b` columns reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The five contractions into the zero array, read at an entry -/

theorem mmK_lhs_free (i : S64x2048.Idx) (q : dot_S64x1024_S2048x1024_S64x2048_1_1_0_0_n_n.contr.Idx) :
    (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch from List.not_mem_nil),
    dif_pos (show (0 : Fin S64x1024.rank) ∈ dot_S64x1024_S2048x1024_S64x2048_1_1_0_0_n_n.lhsNonContracting from List.mem_singleton.mpr rfl)]
  rfl
theorem mmK_lhs_contr (i : S64x2048.Idx) (q : dot_S64x1024_S2048x1024_S64x2048_1_1_0_0_n_n.contr.Idx) :
    (dot_S64x1024_S2048x1024_S64x2048_1_1_0_0_n_n.lhsIdx i q 1).val = (q ⟨0, by decide⟩).val :=
  dot_S64x1024_S2048x1024_S64x2048_1_1_0_0_n_n.lhsIdx_val_of_single rfl i q
theorem mmK_rhs_free (i : S64x2048.Idx) (q : dot_S64x1024_S2048x1024_S64x2048_1_1_0_0_n_n.contr.Idx) :
    (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch from List.not_mem_nil),
    dif_pos (show (0 : Fin S2048x1024.rank) ∈ dot_S64x1024_S2048x1024_S64x2048_1_1_0_0_n_n.rhsNonContracting from List.mem_singleton.mpr rfl)]
  rfl
theorem mmK_rhs_contr (i : S64x2048.Idx) (q : dot_S64x1024_S2048x1024_S64x2048_1_1_0_0_n_n.contr.Idx) :
    (dot_S64x1024_S2048x1024_S64x2048_1_1_0_0_n_n.rhsIdx i q 1).val = (q ⟨0, by decide⟩).val :=
  dot_S64x1024_S2048x1024_S64x2048_1_1_0_0_n_n.rhsIdx_val_of_single rfl i q
/-- Rows of the left array against rows of the right one: entry `(n, s)` is the sum over the 1024 columns of the products. -/
theorem mmK_apply {φ₁ φ₂ : FTy} (prec : Option ContractPrecision) (lhs : FVec Ideal S64x1024 φ₁) (rhs : FVec Ideal S2048x1024 φ₂)
    (i : Fin 64) (j : Fin 2048) :
    matmul dot_S64x1024_S2048x1024_S64x2048_1_1_0_0_n_n prec lhs rhs (constant (F := Ideal) S64x2048 .f32 0x00000000#32) (ix2 i j)
      = ∑ k : Fin 1024, lhs (ix2 i k) * rhs (ix2 j k) := by
  refine (Ideal.matmul_constant_zero_apply dot_S64x1024_S2048x1024_S64x2048_1_1_0_0_n_n prec lhs rhs (ix2 i j)).trans ?_
  rw [← Equiv.sum_comp (contrEquiv1 dot_S64x1024_S2048x1024_S64x2048_1_1_0_0_n_n 1024 rfl rfl).symm]
  refine Finset.sum_congr rfl fun k _ => ?_
  have hk := contrEquiv1_symm_val dot_S64x1024_S2048x1024_S64x2048_1_1_0_0_n_n 1024 rfl rfl k
  have el : dot_S64x1024_S2048x1024_S64x2048_1_1_0_0_n_n.lhsIdx (ix2 i j) ((contrEquiv1 dot_S64x1024_S2048x1024_S64x2048_1_1_0_0_n_n 1024 rfl rfl).symm k) = ix2 i k := funext fun a => Fin.ext (by
    match a with
    | ⟨0, _⟩ => exact mmK_lhs_free _ _
    | ⟨1, _⟩ => exact (mmK_lhs_contr _ _).trans hk)
  have er : dot_S64x1024_S2048x1024_S64x2048_1_1_0_0_n_n.rhsIdx (ix2 i j) ((contrEquiv1 dot_S64x1024_S2048x1024_S64x2048_1_1_0_0_n_n 1024 rfl rfl).symm k) = ix2 j k := funext fun a => Fin.ext (by
    match a with
    | ⟨0, _⟩ => exact mmK_rhs_free _ _
    | ⟨1, _⟩ => exact (mmK_rhs_contr _ _).trans hk)
  rw [el, er]

theorem mmV_lhs_free (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch from List.not_mem_nil),
    dif_pos (show (0 : Fin S2048x1024.rank) ∈ dot_S2048x1024_S64x1024_S2048x64_1_1_0_0_n_n.lhsNonContracting from List.mem_singleton.mpr rfl)]
  rfl
theorem mmV_lhs_contr (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
theorem mmV_rhs_free (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch from List.not_mem_nil),
    dif_pos (show (0 : Fin S64x1024.rank) ∈ dot_S2048x1024_S64x1024_S2048x64_1_1_0_0_n_n.rhsNonContracting from List.mem_singleton.mpr rfl)]
  rfl
theorem mmV_rhs_contr (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q
/-- Rows against rows: entry `(s, n)` is the sum over the 1024 columns of the products. -/
theorem mmV_apply {φ₁ φ₂ : FTy} (prec : Option ContractPrecision) (lhs : FVec Ideal S2048x1024 φ₁) (rhs : FVec Ideal S64x1024 φ₂)
    (i : Fin 2048) (j : Fin 64) :
    matmul dot_S2048x1024_S64x1024_S2048x64_1_1_0_0_n_n prec lhs rhs (constant (F := Ideal) S2048x64 .f32 0x00000000#32) (ix2 i j)
      = ∑ k : Fin 1024, lhs (ix2 i k) * rhs (ix2 j k) := by
  refine (Ideal.matmul_constant_zero_apply dot_S2048x1024_S64x1024_S2048x64_1_1_0_0_n_n prec lhs rhs (ix2 i j)).trans ?_
  rw [← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 i j) ((contrEquiv1 dot_S2048x1024_S64x1024_S2048x64_1_1_0_0_n_n 1024 rfl rfl).symm k) = ix2 i k := funext fun a => Fin.ext (by
    match a with
    | ⟨0, _⟩ => exact mmV_lhs_free _ _
    | ⟨1, _⟩ => exact (mmV_lhs_contr _ _).trans hk)
  have er : dot_S2048x1024_S64x1024_S2048x64_1_1_0_0_n_n.rhsIdx (ix2 i j) ((contrEquiv1 dot_S2048x1024_S64x1024_S2048x64_1_1_0_0_n_n 1024 rfl rfl).symm k) = ix2 j k := funext fun a => Fin.ext (by
    match a with
    | ⟨0, _⟩ => exact mmV_rhs_free _ _
    | ⟨1, _⟩ => exact (mmV_rhs_contr _ _).trans hk)
  rw [el, er]

theorem mmQ_lhs_free (i : S512x64.Idx) (q : dot_S512x1024_S64x1024_S512x64_1_1_0_0_n_n.contr.Idx) :
    (dot_S512x1024_S64x1024_S512x64_1_1_0_0_n_n.lhsIdx i q 0).val = (i 0).val := by
  unfold DotDims.lhsIdx
  rw [dif_neg (show ¬(0 : Fin S512x1024.rank) ∈ dot_S512x1024_S64x1024_S512x64_1_1_0_0_n_n.lhsBatch from List.not_mem_nil),
    dif_pos (show (0 : Fin S512x1024.rank) ∈ dot_S512x1024_S64x1024_S512x64_1_1_0_0_n_n.lhsNonContracting from List.mem_singleton.mpr rfl)]
  rfl
theorem mmQ_lhs_contr (i : S512x64.Idx) (q : dot_S512x1024_S64x1024_S512x64_1_1_0_0_n_n.contr.Idx) :
    (dot_S512x1024_S64x1024_S512x64_1_1_0_0_n_n.lhsIdx i q 1).val = (q ⟨0, by decide⟩).val :=
  dot_S512x1024_S64x1024_S512x64_1_1_0_0_n_n.lhsIdx_val_of_single rfl i q
theorem mmQ_rhs_free (i : S512x64.Idx) (q : dot_S512x1024_S64x1024_S512x64_1_1_0_0_n_n.contr.Idx) :
    (dot_S512x1024_S64x1024_S512x64_1_1_0_0_n_n.rhsIdx i q 0).val = (i 1).val := by
  unfold DotDims.rhsIdx
  rw [dif_neg (show ¬(0 : Fin S64x1024.rank) ∈ dot_S512x1024_S64x1024_S512x64_1_1_0_0_n_n.rhsBatch from List.not_mem_nil),
    dif_pos (show (0 : Fin S64x1024.rank) ∈ dot_S512x1024_S64x1024_S512x64_1_1_0_0_n_n.rhsNonContracting from List.mem_singleton.mpr rfl)]
  rfl
theorem mmQ_rhs_contr (i : S512x64.Idx) (q : dot_S512x1024_S64x1024_S512x64_1_1_0_0_n_n.contr.Idx) :
    (dot_S512x1024_S64x1024_S512x64_1_1_0_0_n_n.rhsIdx i q 1).val = (q ⟨0, by decide⟩).val :=
  dot_S512x1024_S64x1024_S512x64_1_1_0_0_n_n.rhsIdx_val_of_single rfl i q
/-- Rows against rows: entry `(r, n)` is the sum over the 1024 columns of the products. -/
theorem mmQ_apply {φ₁ φ₂ : FTy} (prec : Option ContractPrecision) (lhs : FVec Ideal S512x1024 φ₁) (rhs : FVec Ideal S64x1024 φ₂)
    (i : Fin 512) (j : Fin 64) :
    matmul dot_S512x1024_S64x1024_S512x64_1_1_0_0_n_n prec lhs rhs (constant (F := Ideal) S512x64 .f32 0x00000000#32) (ix2 i j)
      = ∑ k : Fin 1024, lhs (ix2 i k) * rhs (ix2 j k) := by
  refine (Ideal.matmul_constant_zero_apply dot_S512x1024_S64x1024_S512x64_1_1_0_0_n_n prec lhs rhs (ix2 i j)).trans ?_
  rw [← Equiv.sum_comp (contrEquiv1 dot_S512x1024_S64x1024_S512x64_1_1_0_0_n_n 1024 rfl rfl).symm]
  refine Finset.sum_congr rfl fun k _ => ?_
  have hk := contrEquiv1_symm_val dot_S512x1024_S64x1024_S512x64_1_1_0_0_n_n 1024 rfl rfl k
  have el : dot_S512x1024_S64x1024_S512x64_1_1_0_0_n_n.lhsIdx (ix2 i j) ((contrEquiv1 dot_S512x1024_S64x1024_S512x64_1_1_0_0_n_n 1024 rfl rfl).symm k) = ix2 i k := funext fun a => Fin.ext (by
    match a with
    | ⟨0, _⟩ => exact mmQ_lhs_free _ _
    | ⟨1, _⟩ => exact (mmQ_lhs_contr _ _).trans hk)
  have er : dot_S512x1024_S64x1024_S512x64_1_1_0_0_n_n.rhsIdx (ix2 i j) ((contrEquiv1 dot_S512x1024_S64x1024_S512x64_1_1_0_0_n_n 1024 rfl rfl).symm k) = ix2 j k := funext fun a => Fin.ext (by
    match a with
    | ⟨0, _⟩ => exact mmQ_rhs_free _ _
    | ⟨1, _⟩ => exact (mmQ_rhs_contr _ _).trans hk)
  rw [el, er]

theorem mmS_lhs_free (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch from List.not_mem_nil),
    dif_pos (show (0 : Fin S512x64.rank) ∈ dot_S512x64_S64x2048_S512x2048_1_0_0_1_n_n.lhsNonContracting from List.mem_singleton.mpr rfl)]
  rfl
theorem mmS_lhs_contr (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem mmS_rhs_free (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch from List.not_mem_nil),
    dif_pos (show (1 : Fin S64x2048.rank) ∈ dot_S512x64_S64x2048_S512x2048_1_0_0_1_n_n.rhsNonContracting from List.mem_singleton.mpr rfl)]
  rfl
theorem mmS_rhs_contr (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
/-- Rows against columns: entry `(r, s)` is the sum over the 64 shared coordinates of the products. -/
theorem mmS_apply {φ₁ φ₂ : FTy} (prec : Option ContractPrecision) (lhs : FVec Ideal S512x64 φ₁) (rhs : FVec Ideal S64x2048 φ₂)
    (i : Fin 512) (j : Fin 2048) :
    matmul dot_S512x64_S64x2048_S512x2048_1_0_0_1_n_n prec lhs rhs (constant (F := Ideal) S512x2048 .f32 0x00000000#32) (ix2 i j)
      = ∑ k : Fin 64, lhs (ix2 i k) * rhs (ix2 k j) := by
  refine (Ideal.matmul_constant_zero_apply dot_S512x64_S64x2048_S512x2048_1_0_0_1_n_n prec lhs rhs (ix2 i j)).trans ?_
  rw [← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 i j) ((contrEquiv1 dot_S512x64_S64x2048_S512x2048_1_0_0_1_n_n 64 rfl rfl).symm k) = ix2 i k := funext fun a => Fin.ext (by
    match a with
    | ⟨0, _⟩ => exact mmS_lhs_free _ _
    | ⟨1, _⟩ => exact (mmS_lhs_contr _ _).trans hk)
  have er : dot_S512x64_S64x2048_S512x2048_1_0_0_1_n_n.rhsIdx (ix2 i j) ((contrEquiv1 dot_S512x64_S64x2048_S512x2048_1_0_0_1_n_n 64 rfl rfl).symm k) = ix2 k j := funext fun a => Fin.ext (by
    match a with
    | ⟨0, _⟩ => exact (mmS_rhs_contr _ _).trans hk
    | ⟨1, _⟩ => exact mmS_rhs_free _ _)
  rw [el, er]

theorem mmO_lhs_free (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch from List.not_mem_nil),
    dif_pos (show (0 : Fin S512x2048.rank) ∈ dot_S512x2048_S2048x64_S512x64_1_0_0_1_n_n.lhsNonContracting from List.mem_singleton.mpr rfl)]
  rfl
theorem mmO_lhs_contr (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem mmO_rhs_free (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch from List.not_mem_nil),
    dif_pos (show (1 : Fin S2048x64.rank) ∈ dot_S512x2048_S2048x64_S512x64_1_0_0_1_n_n.rhsNonContracting from List.mem_singleton.mpr rfl)]
  rfl
theorem mmO_rhs_contr (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- Rows against columns: entry `(r, n)` is the sum over the 2048 shared coordinates of the products. -/
theorem mmO_apply {φ₁ φ₂ : FTy} (prec : Option ContractPrecision) (lhs : FVec Ideal S512x2048 φ₁) (rhs : FVec Ideal S2048x64 φ₂)
    (i : Fin 512) (j : Fin 64) :
    matmul dot_S512x2048_S2048x64_S512x64_1_0_0_1_n_n prec lhs rhs (constant (F := Ideal) S512x64 .f32 0x00000000#32) (ix2 i j)
      = ∑ k : Fin 2048, lhs (ix2 i k) * rhs (ix2 k j) := by
  refine (Ideal.matmul_constant_zero_apply dot_S512x2048_S2048x64_S512x64_1_0_0_1_n_n prec lhs rhs (ix2 i j)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 i j) ((contrEquiv1 dot_S512x2048_S2048x64_S512x64_1_0_0_1_n_n 2048 rfl rfl).symm k) = ix2 i k := funext fun a => Fin.ext (by
    match a with
    | ⟨0, _⟩ => exact mmO_lhs_free _ _
    | ⟨1, _⟩ => exact (mmO_lhs_contr _ _).trans hk)
  have er : dot_S512x2048_S2048x64_S512x64_1_0_0_1_n_n.rhsIdx (ix2 i j) ((contrEquiv1 dot_S512x2048_S2048x64_S512x64_1_0_0_1_n_n 2048 rfl rfl).symm k) = ix2 k j := funext fun a => Fin.ext (by
    match a with
    | ⟨0, _⟩ => exact (mmO_rhs_contr _ _).trans hk
    | ⟨1, _⟩ => exact mmO_rhs_free _ _)
  rw [el, er]

/-! ## The stored output block, the projected keys and the projected values -/

/-- The output block stored under a leading unit axis: entry `(0, r, n)` is entry `(r, n)`. -/
theorem pay1_apply (v33 : FVec Ideal S512x64 .f32) (r : Fin 512) (n : Fin 64) :
    k0_pay1 (F := Ideal) v33 (ix3 0 r n) = v33 (ix2 r n) := by
  unfold k0_pay1
  exact shapeCast_ab_1ab_apply v33 _ 0 r n

/-- The projected keys, stored transposed: entry `(n, s)` is the dot product of row `n` of the weights with key row
    `s`, plus the bias at `n`. -/
theorem pay2_apply (v37 : Vec Ideal S1x2048x1024 .f32) (v40 : Vec Ideal S64x1024 .f32) (v43 : Vec Ideal S64 .f32)
    (n : Fin 64) (s : Fin 2048) :
    k0_pay2 (F := Ideal) v37 v40 v43 (ix2 n s) = (∑ d : Fin 1024, v40 (ix2 n d) * v37 (ix3 0 s d)) + v43 (ix1 n) := by
  unfold k0_pay2
  refine (congrFun (shapeCast_self _ _) (ix2 n s)).trans ?_
  refine (truncf_apply (φ := .f32) (ψ := .bf16) _ bitsLt_bf16_f32 (ix2 n s)).trans ?_
  refine (addf_apply _ _ _).trans ?_
  refine congrArg₂ (· + ·) ?_ ?_
  · refine (mmK_apply (φ₁ := .bf16) (φ₂ := .bf16) none _ _ n s).trans ?_
    refine Finset.sum_congr rfl fun d _ => ?_
    refine congrArg₂ (· * ·) (truncf_apply (φ := .f32) (ψ := .bf16) v40 bitsLt_bf16_f32 (ix2 n d)) ?_
    exact (truncf_apply (φ := .f32) (ψ := .bf16) _ bitsLt_bf16_f32 (ix2 s d)).trans (shapeCast_1ab_ab_apply v37 _ s d)
  · exact (broadcastTo_a1_ab_apply _ _ n s).trans (shapeCast_a_a1_apply v43 _ n 0)

/-- The projected values: entry `(s, n)` is the dot product of value row `s` with row `n` of the weights, plus the
    bias at `n`. -/
theorem pay3_apply (v51 : Vec Ideal S1x2048x1024 .f32) (v53 : Vec Ideal S64x1024 .f32) (v55 : Vec Ideal S64 .f32)
    (s : Fin 2048) (n : Fin 64) :
    k0_pay3 (F := Ideal) v51 v53 v55 (ix2 s n) = (∑ d : Fin 1024, v51 (ix3 0 s d) * v53 (ix2 n d)) + v55 (ix1 n) := by
  unfold k0_pay3
  refine (congrFun (shapeCast_self _ _) (ix2 s n)).trans ?_
  refine (addf_apply _ _ _).trans ?_
  refine congrArg₂ (· + ·) ?_ ?_
  · refine (mmV_apply (φ₁ := .f32) (φ₂ := .f32) (some .fp32) _ v53 s n).trans ?_
    refine Finset.sum_congr rfl fun d _ => ?_
    exact congrArg (· * v53 (ix2 n d)) (shapeCast_1ab_ab_apply v51 _ s d)
  · exact (broadcastTo_1b_ab_apply _ _ s n).trans (shapeCast_a_1a_apply v55 _ 0 n)

/-! ## The output block -/

/-- The maximum over the keys of one row of an array of scores, from the starting value: the row read at the row's
    coordinates. -/
theorem rowMax_read (x : FVec Ideal S512x2048 .f32) (r : Fin 512) :
    multiReduction (F := Ideal) .maximumf [1] S512 x 0xFF800000#32 reduces_S512x2048_S512 (.inl rfl) rfl (ix1 r)
      = rowMax (fun s : Fin 2048 => x (ix2 r s)) := by
  refine (Ideal.multiReduction_maximumf_single x 0xFF800000#32 reduces_S512x2048_S512 (.inl rfl) rfl (ix1 r)).trans ?_
  have hl : (x ∘ reduces_S512x2048_S512.lift (ix1 r)) = fun s : Fin 2048 => x (ix2 r s) :=
    funext fun k => congrArg x (funext fun a => Fin.ext (by
      match a with
      | ⟨0, _⟩ => rfl
      | ⟨1, _⟩ => rfl))
  exact congrArg (fun f : Fin 2048 → EReal => (Finset.univ : Finset (Fin 2048)).fold max floor f) hl

/-- The sum over the keys of one row of an array. -/
theorem rowSum_read (x : FVec Ideal S512x2048 .f32) (r : Fin 512) :
    multiReduction (F := Ideal) .add [1] S512 x 0x00000000#32 reduces_S512x2048_S512 (.inl rfl) rfl (ix1 r)
      = ∑ s : Fin 2048, x (ix2 r s) := by
  refine (Ideal.multiReduction_add_single x 0x00000000#32 reduces_S512x2048_S512 (.inl rfl) rfl (ix1 r)).trans ?_
  refine Finset.sum_congr rfl fun k _ => congrArg x (funext fun a => Fin.ext (by
    match a with
    | ⟨0, _⟩ => rfl
    | ⟨1, _⟩ => rfl))

/-- The projected query rows of the block: the query rows against the rows of the weights, plus the bias. -/
def queryBlock (v3 : Vec Ideal S1x512x1024 .f32) (v6 : Vec Ideal S64x1024 .f32) (v9 : Vec Ideal S64 .f32) :
    FVec Ideal S512x64 .f32 :=
  addf
    (matmul dot_S512x1024_S64x1024_S512x64_1_1_0_0_n_n none
      (truncf .bf16 (shapeCast S512x1024 v3 shapeCasts_S1x512x1024_S512x1024) bitsLt_bf16_f32)
      (truncf .bf16 v6 bitsLt_bf16_f32) (constant S512x64 .f32 0x00000000#32))
    (broadcastTo S512x64 (shapeCast S1x64 v9 shapeCasts_S64_S1x64) broadcasts_S1x64_S512x64)

/-- Entry `(r, n)` of the projected query rows. -/
theorem queryBlock_apply (v3 : Vec Ideal S1x512x1024 .f32) (v6 : Vec Ideal S64x1024 .f32) (v9 : Vec Ideal S64 .f32)
    (r : Fin 512) (n : Fin 64) :
    queryBlock v3 v6 v9 (ix2 r n) = (∑ d : Fin 1024, v3 (ix3 0 r d) * v6 (ix2 n d)) + v9 (ix1 n) := by
  unfold queryBlock
  refine (addf_apply _ _ _).trans ?_
  refine congrArg₂ (· + ·) ?_ ?_
  · refine (mmQ_apply (φ₁ := .bf16) (φ₂ := .bf16) none _ _ r n).trans ?_
    refine Finset.sum_congr rfl fun d _ => ?_
    refine congrArg₂ (· * ·) ?_ (truncf_apply (φ := .f32) (ψ := .bf16) v6 bitsLt_bf16_f32 (ix2 n d))
    exact (truncf_apply (φ := .f32) (ψ := .bf16) _ bitsLt_bf16_f32 (ix2 r d)).trans (shapeCast_1ab_ab_apply v3 _ r d)
  · exact (broadcastTo_1b_ab_apply _ _ r n).trans (shapeCast_a_1a_apply v9 _ 0 n)

/-- The scores of the block: the projected query rows, each entry scaled by 1/8, against the stored projected keys,
    plus the mask times the penalty. -/
def scoreBlock (v3 : Vec Ideal S1x512x1024 .f32) (v6 : Vec Ideal S64x1024 .f32) (v9 : Vec Ideal S64 .f32)
    (v16 : Vec Ideal S64x2048 .bf16) (v18 : Vec Ideal S1x512x2048 .f32) : FVec Ideal S512x2048 .f32 :=
  addf
    (matmul (φ₂ := .bf16) dot_S512x64_S64x2048_S512x2048_1_0_0_1_n_n none
      (truncf .bf16 (mulf (queryBlock v3 v6 v9) (broadcast S512x64 (Scalar.ofBits .f32 0x3E000000#32))) bitsLt_bf16_f32)
      v16 (constant S512x2048 .f32 0x00000000#32))
    (mulf (shapeCast S512x2048 v18 shapeCasts_S1x512x2048_S512x2048)
      (broadcast S512x2048 (Scalar.ofBits .f32 0xCE6E6B28#32)))

/-- Entry `(r, s)` of the scores. -/
theorem scoreBlock_apply (v3 : Vec Ideal S1x512x1024 .f32) (v6 : Vec Ideal S64x1024 .f32) (v9 : Vec Ideal S64 .f32)
    (v16 : Vec Ideal S64x2048 .bf16) (v18 : Vec Ideal S1x512x2048 .f32) (r : Fin 512) (s : Fin 2048) :
    scoreBlock v3 v6 v9 v16 v18 (ix2 r s)
      = (∑ n' : Fin 64, (((∑ d : Fin 1024, v3 (ix3 0 r d) * v6 (ix2 n' d)) + v9 (ix1 n')) * eighth) * v16 (ix2 n' s))
        + v18 (ix3 0 r s) * penalty := by
  unfold scoreBlock
  refine (addf_apply _ _ _).trans ?_
  refine congrArg₂ (· + ·) ?_ ?_
  · refine (mmS_apply (φ₁ := .bf16) (φ₂ := .bf16) none _ v16 r s).trans ?_
    refine Finset.sum_congr rfl fun n' _ => ?_
    refine congrArg (· * v16 (ix2 n' s)) ?_
    refine (truncf_apply (φ := .f32) (ψ := .bf16) _ bitsLt_bf16_f32 (ix2 r n')).trans ?_
    refine (mulf_apply _ _ _).trans ?_
    exact congrArg (· * eighth) (queryBlock_apply v3 v6 v9 r n')
  · refine (mulf_apply _ _ _).trans ?_
    exact congrArg (· * penalty) (shapeCast_1ab_ab_apply v18 _ r s)

/-- The unnormalised softmax weights of an array of scores: the exponential of each score less its row's maximum. -/
def weightBlock (sc : FVec Ideal S512x2048 .f32) : FVec Ideal S512x2048 .f32 :=
  exp (subf sc
    (broadcastTo S512x2048
      (shapeCast S512x1
        (multiReduction .maximumf [1] S512 sc 0xFF800000#32 reduces_S512x2048_S512 (.inl rfl) rfl) shapeCasts_S512_S512x1)
      broadcasts_S512x1_S512x2048))

/-- Entry `(r, s)` of the weights. -/
theorem weightBlock_apply (sc : FVec Ideal S512x2048 .f32) (r : Fin 512) (s : Fin 2048) :
    weightBlock sc (ix2 r s)
      = wgt (fun s' : Fin 2048 => sc (ix2 r s')) (rowMax (fun s' : Fin 2048 => sc (ix2 r s'))) s := by
  unfold weightBlock wgt
  refine congrArg (fun m : EReal => Ideal.exp (sc (ix2 r s) - m)) ?_
  exact ((broadcastTo_a1_ab_apply _ _ r s).trans (shapeCast_a_a1_apply _ _ r 0)).trans (rowMax_read sc r)

/-- The weighted sums of the values, each row divided once by the row sum of its weights. -/
def normalisedBlock (w : FVec Ideal S512x2048 .f32) (v30 : Vec Ideal S2048x64 .f32) : FVec Ideal S512x64 .f32 :=
  divf
    (matmul (φ₂ := .f32) dot_S512x2048_S2048x64_S512x64_1_0_0_1_n_n (some .fp32) w v30 (constant S512x64 .f32 0x00000000#32))
    (broadcastTo S512x64
      (shapeCast S512x1
        (multiReduction .add [1] S512 w 0x00000000#32 reduces_S512x2048_S512 (.inl rfl) rfl) shapeCasts_S512_S512x1)
      broadcasts_S512x1_S512x64)

/-- Entry `(r, n)` of the normalised weighted sums. -/
theorem normalisedBlock_apply (w : FVec Ideal S512x2048 .f32) (v30 : Vec Ideal S2048x64 .f32) (r : Fin 512) (n : Fin 64) :
    normalisedBlock w v30 (ix2 r n)
      = Ideal.div (∑ s : Fin 2048, w (ix2 r s) * v30 (ix2 s n)) (∑ s : Fin 2048, w (ix2 r s)) := by
  unfold normalisedBlock
  refine (divf_apply _ _ _).trans ?_
  refine congrArg₂ Ideal.div (mmO_apply (φ₁ := .f32) (φ₂ := .f32) (some .fp32) w v30 r n) ?_
  exact ((broadcastTo_a1_ab_apply _ _ r n).trans (shapeCast_a_a1_apply _ _ r 0)).trans (rowSum_read w r)

/-- The softmax of the scores of row `r` applied to column `n` of the values. -/
theorem attnBlock_apply (sc : FVec Ideal S512x2048 .f32) (v30 : Vec Ideal S2048x64 .f32) (r : Fin 512) (n : Fin 64) :
    normalisedBlock (weightBlock sc) v30 (ix2 r n)
      = outLate (fun s : Fin 2048 => sc (ix2 r s)) (fun s : Fin 2048 => v30 (ix2 s n)) := by
  refine (normalisedBlock_apply _ v30 r n).trans ?_
  unfold outLate
  exact congrArg₂ Ideal.div
    (Finset.sum_congr rfl fun s _ => congrArg (· * v30 (ix2 s n)) (weightBlock_apply sc r s))
    (Finset.sum_congr rfl fun s _ => weightBlock_apply sc r s)

/-- The body's output block is the normalised weighted sums of the values under the weights of the scores. -/
theorem pay4_eq (v3 : Vec Ideal S1x512x1024 .f32) (v6 : Vec Ideal S64x1024 .f32) (v9 : Vec Ideal S64 .f32)
    (v16 : Vec Ideal S64x2048 .bf16) (v18 : Vec Ideal S1x512x2048 .f32) (v30 : Vec Ideal S2048x64 .f32) :
    k0_pay4 (F := Ideal) v3 v6 v9 v16 v18 v30 = normalisedBlock (weightBlock (scoreBlock v3 v6 v9 v16 v18)) v30 := rfl

/-- Entry `(r, n)` of the output block: the softmax of the row of scores of query row `r` applied to column `n` of the
    projected values. -/
theorem pay4_apply (v3 : Vec Ideal S1x512x1024 .f32) (v6 : Vec Ideal S64x1024 .f32) (v9 : Vec Ideal S64 .f32)
    (v16 : Vec Ideal S64x2048 .bf16) (v18 : Vec Ideal S1x512x2048 .f32) (v30 : Vec Ideal S2048x64 .f32)
    (r : Fin 512) (n : Fin 64) :
    k0_pay4 (F := Ideal) v3 v6 v9 v16 v18 v30 (ix2 r n)
      = outLate
          (fun s : Fin 2048 =>
            (∑ n' : Fin 64, (((∑ d : Fin 1024, v3 (ix3 0 r d) * v6 (ix2 n' d)) + v9 (ix1 n')) * eighth) * v16 (ix2 n' s))
              + v18 (ix3 0 r s) * penalty)
          (fun s : Fin 2048 => v30 (ix2 s n)) := by
  refine ((congrFun (pay4_eq v3 v6 v9 v16 v18 v30) (ix2 r n)).trans
    (attnBlock_apply (scoreBlock v3 v6 v9 v16 v18) v30 r n)).trans ?_
  exact congrArg (fun sc : Fin 2048 → EReal => outLate sc (fun s : Fin 2048 => v30 (ix2 s n)))
    (funext fun s => scoreBlock_apply v3 v6 v9 v16 v18 r s)

end Cert.KernelPayloads

end
-- ==== Proof.KernelValue.lean ====
/- The kernel's result array at the exact reals: every entry `(b, r, n)` is the attention row of the specification, in the
   arrangement that scales the projected queries and divides by the row sum last.

   Point `t` of the 4 × 4 grid writes rows `512 · (t % 4) … + 511` of batch `t / 4`. The two scratch buffers hold, after
   every point, the projected keys and values of that point's batch (filled at the batch's first tile, untouched after):
   an induction over the points. With that, the tile each point writes back is the specification's row for each of its
   512 query rows, and the sixteen tiles cover the array. -/
import proofs.«139940_j1314259993021_2_alg».proof.Proof.KernelPoints
import proofs.«139940_j1314259993021_2_alg».proof.Proof.KernelBlocks
import proofs.«139940_j1314259993021_2_alg».proof.Proof.KernelPayloads
import proofs.«139940_j1314259993021_2_alg».proof.Proof.AttnSpec
import proofs.«139940_j1314259993021_2_alg».proof.Proof.Gen.KernelIdeal.Value

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.AttnSpec Cert.KernelBlocks Cert.KernelPoints Cert.KernelPayloads

variable (m : (ℓ : Loc nD τ sig) → Buf (Elt Ideal) ℓ) (ρ : Dev nD → PrngReg)

/-- The argument arrays as functions of their coordinates. -/
abbrev aq (c : Dev nD) : Fin 4 → Fin 2048 → Fin 1024 → EReal := cur3 (m ((c : Thread nD τ).loc main_arg0))
abbrev ak (c : Dev nD) : Fin 4 → Fin 2048 → Fin 1024 → EReal := cur3 (m ((c : Thread nD τ).loc main_arg1))
abbrev av (c : Dev nD) : Fin 4 → Fin 2048 → Fin 1024 → EReal := cur3 (m ((c : Thread nD τ).loc main_arg2))
abbrev amask (c : Dev nD) : Fin 4 → Fin 2048 → Fin 2048 → EReal := cur3 (m ((c : Thread nD τ).loc main_arg3))
abbrev awq (c : Dev nD) : Fin 64 → Fin 1024 → EReal := cur2 (m ((c : Thread nD τ).loc main_arg4))
abbrev abq (c : Dev nD) : Fin 64 → EReal := cur1 (m ((c : Thread nD τ).loc main_arg5))
abbrev awk (c : Dev nD) : Fin 64 → Fin 1024 → EReal := cur2 (m ((c : Thread nD τ).loc main_arg6))
abbrev abk (c : Dev nD) : Fin 64 → EReal := cur1 (m ((c : Thread nD τ).loc main_arg7))
abbrev awv (c : Dev nD) : Fin 64 → Fin 1024 → EReal := cur2 (m ((c : Thread nD τ).loc main_arg8))
abbrev abv (c : Dev nD) : Fin 64 → EReal := cur1 (m ((c : Thread nD τ).loc main_arg9))

/-- The result array: the specification's row at every index. -/
def G (c : Dev nD) : S4x2048x64.Idx → EReal :=
  fun i => attnLate (aq m c) (ak m c) (av m c) (amask m c) (awq m c) (abq m c) (awk m c) (abk m c) (awv m c) (abv m c) (i 0) (i 1) (i 2)

/-- The projected keys a batch's first tile stores, entry `(n', s)`: the key projection of the point's batch. -/
theorem keysAt_apply (c : Dev nD) (t : Fin cfg0.N) (n' : Fin 64) (s : Fin 2048) :
    keysAt m c t (ix2 n' s) = proj (ak m c) (awk m c) (abk m c) (batchOf t) s n' := by
  refine (pay2_apply (iblk m c 1 t) (iblk m c 6 t) (iblk m c 7 t) n' s).trans ?_
  unfold proj
  refine congrArg₂ (· + ·) (Finset.sum_congr rfl fun d _ => ?_) (bk_block m c t n')
  rw [wk_block m c t n' d, k_block m c t s d]
  exact mul_comm _ _

/-- … and the projected values, entry `(s, n')`. -/
theorem valsAt_apply (c : Dev nD) (t : Fin cfg0.N) (s : Fin 2048) (n' : Fin 64) :
    valsAt m c t (ix2 s n') = proj (av m c) (awv m c) (abv m c) (batchOf t) s n' := by
  refine (pay3_apply (iblk m c 2 t) (iblk m c 8 t) (iblk m c 9 t) s n').trans ?_
  unfold proj
  refine congrArg₂ (· + ·) (Finset.sum_congr rfl fun d _ => ?_) (bv_block m c t n')
  rw [v_block m c t s d, wv_block m c t n' d]
  rfl

/-- What the scratch buffers hold after point `n`: the projected keys and values of batch `n / 4`. -/
def ScratchOk (c : Dev nD) (n : ℕ) (h : n < cfg0.N) : Prop :=
  (∀ (n' : Fin 64) (s : Fin 2048), (outsAt0 m c n h).2.1 (ix2 n' s) = proj (ak m c) (awk m c) (abk m c) (batchOf ⟨n, h⟩) s n')
  ∧ (∀ (s : Fin 2048) (n' : Fin 64), (outsAt0 m c n h).2.2 (ix2 s n') = proj (av m c) (awv m c) (abv m c) (batchOf ⟨n, h⟩) s n')

/-- By induction on the point: filled at a batch's first tile, carried unchanged to the batch's other tiles. -/
theorem scratch_ok (c : Dev nD) : ∀ (n : ℕ) (h : n < cfg0.N), ScratchOk m c n h
  | 0, h => by
    refine ⟨fun n' s => ?_, fun s n' => ?_⟩
    · rw [keys_first m c ⟨0, h⟩ rfl]; exact keysAt_apply m c ⟨0, h⟩ n' s
    · rw [vals_first m c ⟨0, h⟩ rfl]; exact valsAt_apply m c ⟨0, h⟩ s n'
  | n + 1, h => by
    by_cases h0 : (n + 1) % 4 = 0
    · refine ⟨fun n' s => ?_, fun s n' => ?_⟩
      · rw [keys_first m c ⟨n + 1, h⟩ h0]; exact keysAt_apply m c ⟨n + 1, h⟩ n' s
      · rw [vals_first m c ⟨n + 1, h⟩ h0]; exact valsAt_apply m c ⟨n + 1, h⟩ s n'
    · have ih := scratch_ok c n (Nat.lt_of_succ_lt h)
      have hb : batchOf ⟨n + 1, h⟩ = batchOf ⟨n, Nat.lt_of_succ_lt h⟩ := Fin.ext (by show (n + 1) / 4 = n / 4; omega)
      refine ⟨fun n' s => ?_, fun s n' => ?_⟩
      · rw [keys_later m c ⟨n + 1, h⟩ h0, hb]; exact ih.1 n' s
      · rw [vals_later m c ⟨n + 1, h⟩ h0, hb]; exact ih.2 s n'

/-- The output tile of point `t`, over scratch contents that are the projections of the point's batch, is the
    specification's row for each of the tile's 512 query rows. -/
theorem tileAt_apply (c : Dev nD) (t : Fin cfg0.N) (ks : Vec Ideal S64x2048 .bf16) (vs : Vec Ideal S2048x64 .f32)
    (hks : ∀ (n' : Fin 64) (s : Fin 2048), ks (ix2 n' s) = proj (ak m c) (awk m c) (abk m c) (batchOf t) s n')
    (hvs : ∀ (s : Fin 2048) (n' : Fin 64), vs (ix2 s n') = proj (av m c) (awv m c) (abv m c) (batchOf t) s n')
    (r : Fin 512) (n : Fin 64) :
    tileAt m c t ks vs (ix3 (0 : Fin 1) r n) = attnLate (aq m c) (ak m c) (av m c) (amask m c) (awq m c) (abq m c) (awk m c) (abk m c) (awv m c) (abv m c) (batchOf t) (rowOf t r) n := by
  refine (pay1_apply _ r n).trans ?_
  refine (pay4_apply (iblk m c 0 t) (iblk m c 4 t) (iblk m c 5 t) ks (iblk m c 3 t) vs r n).trans ?_
  unfold attnLate scoreScaled
  refine congrArg₂ outLate (funext fun s => ?_) (funext fun s => hvs s n)
  refine congrArg₂ (· + ·) (Finset.sum_congr rfl fun n' _ => ?_) ?_
  · rw [hks n' s]
    refine congrArg (· * proj (ak m c) (awk m c) (abk m c) (batchOf t) s n') ?_
    refine congrArg (· * eighth) ?_
    unfold proj
    refine congrArg₂ (· + ·) (Finset.sum_congr rfl fun d _ => ?_) (bq_block m c t n')
    rw [q_block m c t r d, wq_block m c t n' d]
    rfl
  · rw [mask_block m c t r s]
    rfl

/-- What each point leaves in the output's staging buffer, read at a row and a column of the tile. -/
theorem tile_eq (c : Dev nD) (t : Fin cfg0.N) (r : Fin 512) (n : Fin 64) :
    (outsAt0 m c t.val t.isLt).1 (ix3 (0 : Fin 1) r n) = attnLate (aq m c) (ak m c) (av m c) (amask m c) (awq m c) (abq m c) (awk m c) (abk m c) (awv m c) (abv m c) (batchOf t) (rowOf t r) n := by
  by_cases h0 : t.val % 4 = 0
  · rw [tile_first m c t h0]
    exact tileAt_apply m c t _ _ (keysAt_apply m c t) (valsAt_apply m c t) r n
  · rw [tile_later m c t h0]
    have hlt : t.val - 1 < cfg0.N := Nat.lt_of_le_of_lt (Nat.sub_le _ _) t.isLt
    have ih := scratch_ok m c (t.val - 1) hlt
    have hb : batchOf ⟨t.val - 1, hlt⟩ = batchOf t := Fin.ext (by show (t.val - 1) / 4 = t.val / 4; omega)
    exact tileAt_apply m c t _ _ (fun n' s => (ih.1 n' s).trans (by rw [hb])) (fun s n' => (ih.2 s n').trans (by rw [hb])) r n

/-- The same at an index of the tile: the entry lands on row `512 · (t % 4) + y₁`, column `y₂` of batch `t / 4`. -/
theorem tile_at_idx (c : Dev nD) (t : Fin cfg0.N) (y : S1x512x64.Idx) :
    (outsAt0 m c t.val t.isLt).1 y
      = G m c (ix3 (batchOf t) (rowOf t ⟨(y 1).val, (y 1).isLt⟩) ⟨(y 2).val, (y 2).isLt⟩) := by
  obtain ⟨b0, r, n, rfl⟩ : ∃ (b0 : Fin 1) (r : Fin 512) (n : Fin 64), y = ix3 b0 r n := ⟨y 0, y 1, y 2, eq_ix3 y⟩
  obtain rfl : b0 = 0 := Subsingleton.elim _ _
  exact tile_eq m c t r n

/-- What point `t` writes back is block `t` of the result array `G`. -/
theorem flushed_eq (c : Dev nD) (t : Fin cfg0.N) (hf : (cfg0.win 10).flush t = true) :
    (dats m 0 c).flushed 10 t = ((cfg0.win 10).blk t).view.read (Elt Ideal) (G m c) := by
  obtain ⟨-, -, -, -, -, -, -, -, -, -, e0, e1, e2⟩ := idx_facts t
  show (cfg0.win 10).cut (grid0.coords t) ((dats m 0 c).after 10 t) = _
  rw [after0_10]
  funext j
  show (outsAt0 m c t.val t.isLt).1 j = G m c (((cfg0.win 10).blk t).view.emb j)
  refine (tile_at_idx m c t j).trans ?_
  refine congrArg (G m c) ?_
  funext a
  apply Fin.ext
  match a with
  | ⟨0, _⟩ => show t.val / 4 = win0_10.index t (0 : Fin 3) * 1 + 1 * (j 0).val; have hj : (j 0).val < 1 := (j 0).isLt; omega
  | ⟨1, _⟩ => show 512 * (t.val % 4) + (j 1).val = win0_10.index t (1 : Fin 3) * 512 + 1 * (j 1).val; omega
  | ⟨2, _⟩ => show (j 2).val = win0_10.index t (2 : Fin 3) * 64 + 1 * (j 2).val; omega

/-- An index of the array is in point `t`'s block iff each coordinate is in the block's range on its axis. -/
theorem mem_blk (t : Fin cfg0.N) (i : S4x2048x64.Idx) :
    i ∈ ((cfg0.win 10).blk t).view.set ↔ ∀ a : Fin 3, win0_10.index t a * S1x512x64.size a ≤ (i a).val ∧ (i a).val < win0_10.index t a * S1x512x64.size a + S1x512x64.size a := by
  show i ∈ ((View.whole main_v0).slice (win0_10.rect t)).set ↔ _
  rw [View.set_slice_whole, Rect.mem_set_unit]
  exact Iff.rfl

/-- Every index of the array is in some point's block: row `r` of batch `b` is written by point `4 b + r / 512`. -/
theorem cover (i : S4x2048x64.Idx) : ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 64 := (i 2).isLt
  have hN := N16
  have hlt : 4 * (i 0).val + (i 1).val / 512 < cfg0.N := by omega
  obtain ⟨-, -, -, -, -, -, -, -, -, -, e0, e1, e2⟩ := idx_facts ⟨4 * (i 0).val + (i 1).val / 512, hlt⟩
  refine ⟨⟨4 * (i 0).val + (i 1).val / 512, hlt⟩, flush0_10 _, ?_⟩
  rw [mem_blk]
  intro a
  match a with
  | ⟨0, _⟩ => show win0_10.index ⟨4 * (i 0).val + (i 1).val / 512, hlt⟩ (0 : Fin 3) * 1 ≤ (i 0).val ∧ (i 0).val < win0_10.index ⟨4 * (i 0).val + (i 1).val / 512, hlt⟩ (0 : Fin 3) * 1 + 1; dsimp only at e0; omega
  | ⟨1, _⟩ => show win0_10.index ⟨4 * (i 0).val + (i 1).val / 512, hlt⟩ (1 : Fin 3) * 512 ≤ (i 1).val ∧ (i 1).val < win0_10.index ⟨4 * (i 0).val + (i 1).val / 512, hlt⟩ (1 : Fin 3) * 512 + 512; dsimp only at e1; omega
  | ⟨2, _⟩ => show win0_10.index ⟨4 * (i 0).val + (i 1).val / 512, hlt⟩ (2 : Fin 3) * 64 ≤ (i 2).val ∧ (i 2).val < win0_10.index ⟨4 * (i 0).val + (i 1).val / 512, hlt⟩ (2 : Fin 3) * 64 + 64; omega

/-- So the result array ends holding `G`. -/
theorem final (c : Dev nD) : (dats m 0 c).arrAt 10 cfg0.N = G m c :=
  (dats m 0 c).arrAt_eq_of_cover 10 (G m c) (flushed_eq m c) cover

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelValue

end
-- ==== Proof.lean ====
/- The proof of `Cert.Claim`: a single-head attention kernel (projections of q, k, v to 64 columns, scaled scores plus a
   mask penalty, a row softmax, the weighted sum of the projected values) against the same computation written with
   whole-array operations.

   The kernel keeps the projected keys and values of a batch in scratch, computed at the batch's first query tile, scales
   the projected queries by 1/8 before the score product, and divides by the softmax row sum after the last matrix
   product; the reference divides the scores by 8 and normalises the weights before the last product. Both results are
   read against one specification of the attention row (AttnSpec): the kernel's result array is its first arrangement at
   every index (KernelValue, over the per-point values of KernelPoints, the blocks of KernelBlocks and the body's
   arithmetic of KernelPayloads), the reference's result is its second arrangement (RefAttn), and the two arrangements are
   equal when the arrays the scores depend on hold real numbers (AttnAlgebra), which the precondition gives
   (FiniteInputs). The three frames are the generated frame runs; the idealization rewrote nothing. -/
import proofs.«139940_j1314259993021_2_alg».proof.Defs
import proofs.«139940_j1314259993021_2_alg».proof.Proof.Gen.Kernel
import proofs.«139940_j1314259993021_2_alg».proof.Proof.Gen.Kernel.Skeleton
import proofs.«139940_j1314259993021_2_alg».proof.Proof.Gen.Kernel.Launch
import proofs.«139940_j1314259993021_2_alg».proof.Proof.Gen.Kernel.Points
import proofs.«139940_j1314259993021_2_alg».proof.Proof.Gen.Kernel.Frame
import proofs.«139940_j1314259993021_2_alg».proof.Proof.Gen.KernelIdeal
import proofs.«139940_j1314259993021_2_alg».proof.Proof.Gen.KernelIdeal.Skeleton
import proofs.«139940_j1314259993021_2_alg».proof.Proof.Gen.KernelIdeal.Launch
import proofs.«139940_j1314259993021_2_alg».proof.Proof.Gen.KernelIdeal.Points
import proofs.«139940_j1314259993021_2_alg».proof.Proof.Gen.KernelIdeal.Frame
import proofs.«139940_j1314259993021_2_alg».proof.Proof.Gen.KernelIdeal.Value
import proofs.«139940_j1314259993021_2_alg».proof.Proof.Gen.ReferenceIdeal
import proofs.«139940_j1314259993021_2_alg».proof.Proof.Gen.ReferenceIdeal.Run
import proofs.«139940_j1314259993021_2_alg».proof.Proof.Gen.ReferenceIdeal.Read
import proofs.«139940_j1314259993021_2_alg».proof.Proof.Gen.Pre_finite_inputs
import proofs.«139940_j1314259993021_2_alg».proof.Proof.AttnSpec
import proofs.«139940_j1314259993021_2_alg».proof.Proof.AttnAlgebra
import proofs.«139940_j1314259993021_2_alg».proof.Proof.FiniteInputs
import proofs.«139940_j1314259993021_2_alg».proof.Proof.RefAttn
import proofs.«139940_j1314259993021_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the exact reals the kernel's result array ends at the attention row in its first arrangement and the
    reference's result at the second, of arguments that agree; on finite inputs the two are equal. -/
theorem algebraic : Cert.algebraic_KernelIdeal_ReferenceIdeal := by
  intro m ρ m' ρ' hpre hagree
  refine ⟨fun c => Cert.KernelValue.G m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v29_eq, Cert.RefAttn.ref_eq, a0, a1, a2, a3, a4, a5, a6, a7, a8, a9]
  obtain ⟨hq, hk, hmask, hwq, hbq, hwk, hbk⟩ := Cert.FiniteInputs.real_of_pre m hpre c
  funext i
  exact (Cert.AttnAlgebra.attnLate_eq_attnEarly _ _ _ _ _ _ _ _ _ _ (fun _ _ _ => hq _) (fun _ _ _ => hk _)
    (fun _ _ _ => hmask _) (fun _ _ => hwq _) (fun _ => hbq _) (fun _ _ => hwk _) (fun _ => hbk _) (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
